-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100x47 : Shape := ⟨2, ![100, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x47 : S_.BroadcastsInDim S100x47 (![] : Fin 0 → Fin S100x47.rank)
  reducesTo_S100x47_S_d0_1 : S100x47.ReducesTo [0, 1] S_
  bcast_S_S47 : S_.BroadcastsInDim S47 (![] : Fin 0 → Fin S47.rank)
  reducesTo_S47_S_d0 : S47.ReducesTo [0] S_

variable [Facts]

def fn {F : FTy → Type} [FloatOps F] (main_arg0 : FVec F S100000x100 .f32) (main_arg1 : IVec S2x1600000 32) (main_arg2 : FVec F S100x47 .f32) (main_arg3 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x47 .f32 := Host.absf main_arg2
  let main_cst_0 : FVec F S_ .f32 := constant S_ .f32 0x7F800000#32
  let main_v5 : FVec F S100x47 .f32 := broadcastInDim S100x47 ![] bcast_S_S100x47 main_cst_0
  let main_v6 : IVec S100x47 1 := cmpf .olt main_v4 main_v5
  let main_c_1 : IVec S_ 1 := constantI S_ 1 1#1
  let main_v7 : IVec S_ 1 := (fun x v => Host.reduce IntOp.andi x v reducesTo_S100x47_S_d0_1 h_S_) main_v6 main_c_1
  let main_v8 : IVec S_ 1 := andi main_v3 main_v7
  let main_v9 : FVec F S47 .f32 := Host.absf main_arg3
  let main_cst_2 : FVec F S_ .f32 := constant S_ .f32 0x7F800000#32
  let main_v10 : FVec F S47 .f32 := broadcastInDim S47 ![] bcast_S_S47 main_cst_2
  let main_v11 : IVec S47 1 := cmpf .olt main_v9 main_v10
  let main_c_3 : IVec S_ 1 := constantI S_ 1 1#1
  let main_v12 : IVec S_ 1 := (fun x v => Host.reduce IntOp.andi x v reducesTo_S47_S_d0 h_S_) main_v11 main_c_3
  let main_v13 : IVec S_ 1 := andi main_v8 main_v12
  main_v13
-- ==== Kernel.lean ====
abbrev S100000x100 : Shape := ⟨2, ![100000, 100]⟩
abbrev S2x1600000 : Shape := ⟨2, ![2, 1600000]⟩
abbrev S100x47 : Shape := ⟨2, ![100, 47]⟩
abbrev S47 : Shape := ⟨1, ![47]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x47 : Shape := ⟨2, ![1, 47]⟩
abbrev S100000x47 : Shape := ⟨2, ![100000, 47]⟩
abbrev S10000x100 : Shape := ⟨2, ![10000, 100]⟩
abbrev S10000x47 : Shape := ⟨2, ![10000, 47]⟩
abbrev S1700000x47 : Shape := ⟨2, ![1700000, 47]⟩
abbrev S10000 : Shape := ⟨1, ![10000]⟩
abbrev S10000x1 : Shape := ⟨2, ![10000, 1]⟩

abbrev nBuf : Space → Nat
  | .hbm => 100
  | .vmem => 28
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x47, .f32⟩
  | .hbm, ⟨3, _⟩ => ⟨S47, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x100, .bf16⟩
  | .hbm, ⟨45, _⟩ => ⟨S100x47, .bf16⟩
  | .hbm, ⟨46, _⟩ => ⟨S1x47, .f32⟩
  | .hbm, ⟨47, _⟩ => ⟨S100000x47, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x47, .f32⟩
  | .hbm, ⟨58, _⟩ => ⟨S1700000x47, .f32⟩
  | .hbm, ⟨59, _⟩ => ⟨S1700000x47, .f32⟩
  | .hbm, ⟨60, _⟩ => ⟨S_, .f32⟩
  | .hbm, ⟨61, _⟩ => ⟨S100000x47, .f32⟩
  | .hbm, ⟨62, _⟩ => ⟨S1700000x1, .i32⟩
  | .hbm, ⟨63, _⟩ => ⟨S100000x47, .f32⟩
  | .hbm, ⟨64, _⟩ => ⟨S100000x47, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x47, .f32⟩
  | .hbm, ⟨75, _⟩ => ⟨S1700000x47, .f32⟩
  | .hbm, ⟨76, _⟩ => ⟨S1700000x47, .f32⟩
  | .hbm, ⟨77, _⟩ => ⟨S_, .f32⟩
  | .hbm, ⟨78, _⟩ => ⟨S100000x47, .f32⟩
  | .hbm, ⟨79, _⟩ => ⟨S1700000x1, .i32⟩
  | .hbm, ⟨80, _⟩ => ⟨S100000x47, .f32⟩
  | .hbm, ⟨81, _⟩ => ⟨S100000x47, .f32⟩
  | .hbm, ⟨82, _⟩ => ⟨S1700000x1, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x47, .f32⟩
  | .hbm, ⟨92, _⟩ => ⟨S1700000x47, .f32⟩
  | .hbm, ⟨93, _⟩ => ⟨S1700000x47, .f32⟩
  | .hbm, ⟨94, _⟩ => ⟨S_, .f32⟩
  | .hbm, ⟨95, _⟩ => ⟨S100000x47, .f32⟩
  | .hbm, ⟨96, _⟩ => ⟨S1700000x1, .i32⟩
  | .hbm, ⟨97, _⟩ => ⟨S100000x47, .f32⟩
  | .hbm, ⟨98, _⟩ => ⟨S100000x47, .f32⟩
  | .hbm, ⟨99, _⟩ => ⟨S100000x47, .f32⟩
  | .local _ .vmem, ⟨0, _⟩ => ⟨S10000x100, .bf16⟩
  | .local _ .vmem, ⟨1, _⟩ => ⟨S10000x100, .bf16⟩
  | .local _ .vmem, ⟨2, _⟩ => ⟨S100x47, .bf16⟩
  | .local _ .vmem, ⟨3, _⟩ => ⟨S1x47, .f32⟩
  | .local _ .vmem, ⟨4, _⟩ => ⟨S10000x47, .f32⟩
  | .local _ .vmem, ⟨5, _⟩ => ⟨S10000x47, .f32⟩
  | .local _ .vmem, ⟨6, _⟩ => ⟨S10000x47, .f32⟩
  | .local _ .vmem, ⟨7, _⟩ => ⟨S10000x47, .f32⟩
  | .local _ .vmem, ⟨8, _⟩ => ⟨S10000x47, .f32⟩
  | .local _ .vmem, ⟨9, _⟩ => ⟨S10000x47, .f32⟩
  | .local _ .vmem, ⟨10, _⟩ => ⟨S10000x47, .f32⟩
  | .local _ .vmem, ⟨11, _⟩ => ⟨S10000x47, .f32⟩
  | .local _ .vmem, ⟨12, _⟩ => ⟨S10000x47, .f32⟩
  | .local _ .vmem, ⟨13, _⟩ => ⟨S10000x47, .f32⟩
  | .local _ .vmem, ⟨14, _⟩ => ⟨S10000x47, .f32⟩
  | .local _ .vmem, ⟨15, _⟩ => ⟨S10000x47, .f32⟩
  | .local _ .vmem, ⟨16, _⟩ => ⟨S10000x47, .f32⟩
  | .local _ .vmem, ⟨17, _⟩ => ⟨S10000x47, .f32⟩
  | .local _ .vmem, ⟨18, _⟩ => ⟨S10000x47, .f32⟩
  | .local _ .vmem, ⟨19, _⟩ => ⟨S10000x47, .f32⟩
  | .local _ .vmem, ⟨20, _⟩ => ⟨S10000x47, .f32⟩
  | .local _ .vmem, ⟨21, _⟩ => ⟨S10000x47, .f32⟩
  | .local _ .vmem, ⟨22, _⟩ => ⟨S10000x47, .f32⟩
  | .local _ .vmem, ⟨23, _⟩ => ⟨S10000x47, .f32⟩
  | .local _ .vmem, ⟨24, _⟩ => ⟨S10000x47, .f32⟩
  | .local _ .vmem, ⟨25, _⟩ => ⟨S10000x47, .f32⟩
  | .local _ .vmem, ⟨26, _⟩ => ⟨S10000x47, .f32⟩
  | .local _ .vmem, ⟨27, _⟩ => ⟨S10000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x47 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x47 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x47 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x47 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x47 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x47 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x47 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x47 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x47 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x47 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x47 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x47 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S47_S1x47 : S47.ShapeCasts S1x47
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  inb_S100x47_S100x47_0_0 : ∀ a, (![0, 0] : Fin 2 → Nat) a + S100x47.size a ≤ S100x47.size a
  h_S100x47 : 0 < S100x47.numel
  shapeCasts_S100x47_S100x47 : S100x47.ShapeCasts S100x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  inb_S10000x47_S10000x47_0_0 : ∀ a, (![0, 0] : Fin 2 → Nat) a + S10000x47.size a ≤ S10000x47.size a
  h_S10000x47 : 0 < S10000x47.numel
  bcast_S1700000x1_S1700000x47_0_1 : S1700000x1.BroadcastsInDim S1700000x47 (![0, 1] : Fin 2 → Fin S1700000x47.rank)
  bcast_S_S100000x47 : S_.BroadcastsInDim S100000x47 (![] : Fin 0 → Fin S100000x47.rank)
  shapeCasts_S10000x47_S10000x47 : S10000x47.ShapeCasts S10000x47
  reduces_S10000x47_S10000 : S10000x47.Reduces [1] S10000
  shapeCasts_S10000_S10000x1 : S10000.ShapeCasts S10000x1
  broadcasts_S10000x1_S10000x47 : S10000x1.Broadcasts S10000x47
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x100_S100x47_S10000x47_1_0_0_1_n_n_wf : DotDims.WF S10000x100 S100x47 S10000x47 [1] [0] [0] [1] [] []
  gather_S100000x47_S1700000x1_S1700000x47_1_0_n_n_0_1_147_wf : GatherDims.WF S100000x47 S1700000x1 S1700000x47 [1] [0] [] [0] [] 1 ![1, 47]
  scatter_S100000x47_S1700000x1_S1700000x47_1_0_0_1_wf : ScatterDims.WF S100000x47 S1700000x1 S1700000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .bf16 = 32 ∨ (Rect.block (s := S100000x100) S10000x100.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x47.size a ≤ S100x47.size a
  hwx0_1 : ∀ i : grid0.Coords, EltTy.bits .bf16 = 32 ∨ (Rect.block (s := S100x47) S100x47.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x47.size a ≤ S1x47.size a
  hwx0_2 : ∀ i : grid0.Coords, EltTy.bits .f32 = 32 ∨ (Rect.block (s := S1x47) S1x47.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x47.size a ≤ S100000x47.size a
  hwx0_3 : ∀ i : grid0.Coords, EltTy.bits .f32 = 32 ∨ (Rect.block (s := S100000x47) S10000x47.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x47.size a ≤ S100000x47.size a
  hwx1_0 : ∀ i : grid1.Coords, EltTy.bits .f32 = 32 ∨ (Rect.block (s := S100000x47) S10000x47.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x47.size a ≤ S100000x47.size a
  hwx1_1 : ∀ i : grid1.Coords, EltTy.bits .f32 = 32 ∨ (Rect.block (s := S100000x47) S10000x47.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x47.size a ≤ S100000x47.size a
  hwx1_2 : ∀ i : grid1.Coords, EltTy.bits .f32 = 32 ∨ (Rect.block (s := S100000x47) S10000x47.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x47.size a ≤ S100000x47.size a
  hwx2_0 : ∀ i : grid2.Coords, EltTy.bits .f32 = 32 ∨ (Rect.block (s := S100000x47) S10000x47.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x47.size a ≤ S100000x47.size a
  hwx2_1 : ∀ i : grid2.Coords, EltTy.bits .f32 = 32 ∨ (Rect.block (s := S100000x47) S10000x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x47.size a ≤ S100000x47.size a
  hwx2_2 : ∀ i : grid2.Coords, EltTy.bits .f32 = 32 ∨ (Rect.block (s := S100000x47) S10000x47.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x47.size a ≤ S100000x47.size a
  hwx3_0 : ∀ i : grid3.Coords, EltTy.bits .f32 = 32 ∨ (Rect.block (s := S100000x47) S10000x47.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x47.size a ≤ S100000x47.size a
  hwx3_1 : ∀ i : grid3.Coords, EltTy.bits .f32 = 32 ∨ (Rect.block (s := S100000x47) S10000x47.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x47.size a ≤ S100000x47.size a
  hwx3_2 : ∀ i : grid3.Coords, EltTy.bits .f32 = 32 ∨ (Rect.block (s := S100000x47) S10000x47.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x47.size a ≤ S100000x47.size a
  hwx4_0 : ∀ i : grid4.Coords, EltTy.bits .f32 = 32 ∨ (Rect.block (s := S100000x47) S10000x47.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x47.size a ≤ S100000x47.size a
  hwx4_1 : ∀ i : grid4.Coords, EltTy.bits .f32 = 32 ∨ (Rect.block (s := S100000x47) S10000x47.size (cc4_transform_1 i) (hinb4_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x100_S100x47_S10000x47_1_0_0_1_n_n : DotDims S10000x100 S100x47 S10000x47 where
  lhsContracting := [1]
  rhsContracting := [0]
  lhsNonContracting := [0]
  rhsNonContracting := [1]
  lhsBatch := []
  rhsBatch := []
  wf := dot_S10000x100_S100x47_S10000x47_1_0_0_1_n_n_wf
def gather_S100000x47_S1700000x1_S1700000x47_1_0_n_n_0_1_147 : GatherDims S100000x47 S1700000x1 S1700000x47 where
  offsetDims := [1]
  collapsedSliceDims := [0]
  operandBatchingDims := []
  startIndicesBatchingDims := []
  startIndexMap := [0]
  indexVectorDim := 1
  sliceSizes := ![1, 47]
  wf := gather_S100000x47_S1700000x1_S1700000x47_1_0_n_n_0_1_147_wf
def scatter_S100000x47_S1700000x1_S1700000x47_1_0_0_1 : ScatterDims S100000x47 S1700000x1 S1700000x47 where
  updateWindowDims := [1]
  insertedWindowDims := [0]
  scatterDimsToOperandDims := [0]
  indexVectorDim := 1
  wf := scatter_S100000x47_S1700000x1_S1700000x47_1_0_0_1_wf

abbrev win0_0 : Pipeline.Window sig grid0 :=
  Pipeline.Window.ofSpec (Memref.whole main_v30) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S100x47.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x47.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x47.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x47.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x47.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x47.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S10000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x47.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S10000x47.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S10000x47.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x47.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S10000x47.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S10000x47.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100x47 : Shape := ⟨2, ![100, 47]⟩
abbrev S47 : Shape := ⟨1, ![47]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x47 : Shape := ⟨2, ![100000, 47]⟩
abbrev S1x47 : Shape := ⟨2, ![1, 47]⟩
abbrev S1700000x47 : Shape := ⟨2, ![1700000, 47]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x100, .f32⟩
  | 1 => ⟨S2x1600000, .i32⟩
  | 2 => ⟨S100x47, .f32⟩
  | 3 => ⟨S47, .f32⟩
  | 4 => ⟨S100000, .i32⟩
  | 5 => ⟨S1x1600000, .i32⟩
  | 6 => ⟨S1600000, .i32⟩
  | 7 => ⟨S1700000, .i32⟩
  | 8 => ⟨S1x1600000, .i32⟩
  | 9 => ⟨S1600000, .i32⟩
  | 10 => ⟨S1700000, .i32⟩
  | 11 => ⟨S_, .f32⟩
  | 12 => ⟨S1700000, .f32⟩
  | 13 => ⟨S_, .f32⟩
  | 14 => ⟨S100000, .f32⟩
  | 15 => ⟨S1700000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x47, .f32⟩
  | 45 => ⟨S1x47, .f32⟩
  | 46 => ⟨S100000x47, .f32⟩
  | 47 => ⟨S100000x47, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x47, .f32⟩
  | 58 => ⟨S1700000x47, .f32⟩
  | 59 => ⟨S1700000x47, .f32⟩
  | 60 => ⟨S_, .f32⟩
  | 61 => ⟨S100000x47, .f32⟩
  | 62 => ⟨S1700000x1, .i32⟩
  | 63 => ⟨S100000x47, .f32⟩
  | 64 => ⟨S_, .f32⟩
  | 65 => ⟨S100000x47, .f32⟩
  | 66 => ⟨S100000x47, .f32⟩
  | 67 => ⟨S_, .f32⟩
  | 68 => ⟨S100000x47, .f32⟩
  | 69 => ⟨S100000x47, .f32⟩
  | 70 => ⟨S100000x47, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x47, .f32⟩
  | 81 => ⟨S1700000x47, .f32⟩
  | 82 => ⟨S1700000x47, .f32⟩
  | 83 => ⟨S_, .f32⟩
  | 84 => ⟨S100000x47, .f32⟩
  | 85 => ⟨S1700000x1, .i32⟩
  | 86 => ⟨S100000x47, .f32⟩
  | 87 => ⟨S_, .f32⟩
  | 88 => ⟨S100000x47, .f32⟩
  | 89 => ⟨S100000x47, .f32⟩
  | 90 => ⟨S_, .f32⟩
  | 91 => ⟨S100000x47, .f32⟩
  | 92 => ⟨S100000x47, .f32⟩
  | 93 => ⟨S100000x47, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x47, .f32⟩
  | 104 => ⟨S1700000x47, .f32⟩
  | 105 => ⟨S1700000x47, .f32⟩
  | 106 => ⟨S_, .f32⟩
  | 107 => ⟨S100000x47, .f32⟩
  | 108 => ⟨S1700000x1, .i32⟩
  | 109 => ⟨S100000x47, .f32⟩
  | 110 => ⟨S_, .f32⟩
  | 111 => ⟨S100000x47, .f32⟩
  | 112 => ⟨S100000x47, .f32⟩
  | 113 => ⟨S_, .f32⟩
  | 114 => ⟨S100000x47, .f32⟩
  | 115 => ⟨S100000x47, .f32⟩
  | 116 => ⟨S100000x47, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x47, .f32⟩
  | 124 => ⟨S100000x47, .f32⟩
  | 125 => ⟨S100000x47, .f32⟩
  | 126 => ⟨S_, .f32⟩
  | 127 => ⟨S100000, .f32⟩
  | _ => ⟨S100000x100, .f32⟩

abbrev hbmTy0_1 (i : Nat) : BufTy := match i % 128 with
  | 0 => ⟨S100000x1, .f32⟩
  | 1 => ⟨S100000x1, .f32⟩
  | 2 => ⟨S100000x47, .f32⟩
  | 3 => ⟨S100000x47, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_c_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_19 : Ref sig .tc := ⟨.hbm, 110, rfl⟩
abbrev main_v83 : Ref sig .tc := ⟨.hbm, 111, rfl⟩
abbrev main_v84 : Ref sig .tc := ⟨.hbm, 112, rfl⟩
abbrev main_cst_20 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call1_cst : Ref sig .tc := ⟨.hbm, 117, rfl⟩
abbrev main_call1_v0 : Ref sig .tc := ⟨.hbm, 118, rfl⟩
abbrev main_call1_cst_0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_cst_1 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_v88 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  bcast_S1700000x1_S1700000x47_0_1 : S1700000x1.BroadcastsInDim S1700000x47 (![0, 1] : Fin 2 → Fin S1700000x47.rank)
  bcast_S_S100000x47 : S_.BroadcastsInDim S100000x47 (![] : Fin 0 → Fin S100000x47.rank)
  reducesTo_S100000x47_S100000_d1 : S100000x47.ReducesTo [1] S100000
  h_S_ : 0 < S_.numel
  bcast_S100000_S100000x1_0 : S100000.BroadcastsInDim S100000x1 (![0] : Fin 1 → Fin S100000x1.rank)
  bcast_S100000x1_S100000x47_0_1 : S100000x1.BroadcastsInDim S100000x47 (![0, 1] : Fin 2 → Fin S100000x47.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x47_S100000x47_1_0_0_1_n_n_wf : DotDims.WF S100000x100 S100x47 S100000x47 [1] [0] [0] [1] [] []
  gather_S100000x47_S1700000x1_S1700000x47_1_0_n_n_0_1_147_wf : GatherDims.WF S100000x47 S1700000x1 S1700000x47 [1] [0] [] [0] [] 1 ![1, 47]
  scatter_S100000x47_S1700000x1_S1700000x47_1_0_0_1_wf : ScatterDims.WF S100000x47 S1700000x1 S1700000x47 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x47_S100000x47_1_0_0_1_n_n : DotDims S100000x100 S100x47 S100000x47 where
  lhsContracting := [1]
  rhsContracting := [0]
  lhsNonContracting := [0]
  rhsNonContracting := [1]
  lhsBatch := []
  rhsBatch := []
  wf := dot_S100000x100_S100x47_S100000x47_1_0_0_1_n_n_wf
def gather_S100000x47_S1700000x1_S1700000x47_1_0_n_n_0_1_147 : GatherDims S100000x47 S1700000x1 S1700000x47 where
  offsetDims := [1]
  collapsedSliceDims := [0]
  operandBatchingDims := []
  startIndicesBatchingDims := []
  startIndexMap := [0]
  indexVectorDim := 1
  sliceSizes := ![1, 47]
  wf := gather_S100000x47_S1700000x1_S1700000x47_1_0_n_n_0_1_147_wf
def scatter_S100000x47_S1700000x1_S1700000x47_1_0_0_1 : ScatterDims S100000x47 S1700000x1 S1700000x47 where
  updateWindowDims := [1]
  insertedWindowDims := [0]
  scatterDimsToOperandDims := [0]
  indexVectorDim := 1
  wf := scatter_S100000x47_S1700000x1_S1700000x47_1_0_0_1_wf

class Facts : Prop extends Facts₀ where

variable [Facts]
-- ==== Proof.KernelRun.lean ====
/-
  The idealized kernel's run, read at its result.

  The program is five pipelined regions among stretches of host operations.  Every weakly fair execution from a
  memory with zero counters terminates without a fault; at the end every unscoped buffer of a core holds the last
  boundary's contents of the fold through the segments, so in particular the result array holds that fold's value at
  the result buffer, and the four argument arrays hold what they were launched with.
-/
import proofs.«170548_j59021440581796_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.KRun

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«170548_j59021440581796_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.Spec.lean ====
/-
  The mathematics both programs compute, as functions on the extended reals.

  The network is a three-hop propagation over a graph followed by a row-wise log-softmax:
    h0 = x·W + b                                   (an affine layer, entry (p,q) = Σ_k x(p,k)·W(k,q) + b(q)),
    h  ← c₉·(the graph aggregation of h) + c₁·h0   three times (c₉, c₁ the two f32 literals written 0.9 and 0.1),
    out(p,q) = (h(p,q) − M_p) − log Σ_k exp(h(p,k) − M_p),   M_p the maximum of row p started from the literal −∞.
  Only the dense stages are stated here; the graph aggregation is the same host term in both programs and is never
  opened.  Arrays are functions on rank-2 indices; entries are named by coordinates (p, q).
-/
import Idealize.ShloMosaic.PureOps.Ideal.Laws
import Idealize.ShloMosaic.Lib.ValueIdx
import Mathlib.Data.Finset.Fold

noncomputable section

open scoped BigOperators

namespace Cert.Spec

open Idealize.ShloMosaic Idealize.ShloMosaic.ValueIdx

/-- A rank-2 array of extended reals. -/
abbrev Arr (a b : Nat) : Type := (⟨2, ![a, b]⟩ : Shape).Idx → EReal

/-- The array whose entry at row p and column q is f p q. -/
def ofFn {a b : Nat} (f : Fin a → Fin b → EReal) : Arr a b := fun i => f (i 0) (i 1)

theorem ofFn_ix2 {a b : Nat} (f : Fin a → Fin b → EReal) (p : Fin a) (q : Fin b) : ofFn f (ix2 p q) = f p q := rfl

/-- An array is the one built from f as soon as each entry, named by its coordinates, is f's value. -/
theorem eq_ofFn {a b : Nat} (A : Arr a b) (f : Fin a → Fin b → EReal) (h : ∀ p q, A (ix2 p q) = f p q) : A = ofFn f := by
  funext j
  have e := eq_ix2 j
  rw [e]
  exact h (j 0) (j 1)

/-- The affine layer: entry (p,q) is Σ_k x(p,k)·W(k,q) + b(q). -/
def lin (x : Arr 100000 100) (W : Arr 100 47) (b : Fin 47 → EReal) : Arr 100000 47 :=
  ofFn fun p q => (∑ k : Fin 100, x (ix2 p k) * W (ix2 k q)) + b q

theorem lin_apply (x : Arr 100000 100) (W : Arr 100 47) (b : Fin 47 → EReal) (i : (⟨2, ![100000, 47]⟩ : Shape).Idx) :
    lin x W b i = (∑ k : Fin 100, x (ix2 (i 0) k) * W (ix2 k (i 1))) + b (i 1) := rfl

/-- The two teleport coefficients, as the f32 literals both programs carry. -/
def c9 : EReal := Ideal.ofBits .f32 0x3F666666#32
def c1 : EReal := Ideal.ofBits .f32 0x3DCCCCCD#32

/-- The teleport combination, entry by entry. -/
def comb (agg h0 : Arr 100000 47) : Arr 100000 47 := fun i => c9 * agg i + c1 * h0 i

theorem comb_apply (agg h0 : Arr 100000 47) (i : (⟨2, ![100000, 47]⟩ : Shape).Idx) : comb agg h0 i = c9 * agg i + c1 * h0 i := rfl

/-- The literal the row maximum is started from (the f32 pattern of −∞). -/
def ninf : EReal := Ideal.ofBits .f32 0xFF800000#32

/-- The maximum of a row of 47 entries, started from that literal. -/
def rowMax (row : Fin 47 → EReal) : EReal := (Finset.univ : Finset (Fin 47)).fold max ninf row

/-- The starting value is below the maximum, so taking the maximum with it once more changes nothing. -/
theorem max_ninf_rowMax (row : Fin 47 → EReal) : max ninf (rowMax row) = rowMax row :=
  max_eq_right ((Finset.le_fold_max _).mpr (Or.inl le_rfl))

/-- One entry of the log-softmax of a row. -/
def lsmRow (row : Fin 47 → EReal) (q : Fin 47) : EReal :=
  (row q - rowMax row) - Ideal.log (∑ k : Fin 47, Ideal.exp (row k - rowMax row))

/-- The row-wise log-softmax of an array with rows of 47 entries. -/
def lsm {a : Nat} (h : Arr a 47) : Arr a 47 := ofFn fun p q => lsmRow (fun k => h (ix2 p k)) q

theorem lsm_apply {a : Nat} (h : Arr a 47) (i : (⟨2, ![a, 47]⟩ : Shape).Idx) :
    lsm h i = lsmRow (fun k => h (ix2 (i 0) k)) (i 1) := rfl

end Cert.Spec

end
-- ==== Proof.KernelPay.lean ====
/-
  What each kernel body stores, read at an entry of the block, at the ideal instance.

  The affine kernel stores Σ_k x(p,k)·W(k,q) + b(0,q); the combine kernels store c₉·agg + c₁·h0 entry by entry; the
  log-softmax kernel stores, in row p, (h(p,q) − M_p) − log Σ_k exp(h(p,k) − M_p) with M_p the row's maximum started
  from the −∞ literal: a row's maximum and a row's sum are lane reductions over the block's second axis, cast to a
  column and broadcast back along the row.
-/
import proofs.«170548_j59021440581796_1_alg».proof.Proof.Gen.KernelIdeal.Skeleton
import proofs.«170548_j59021440581796_1_alg».proof.Proof.LibAffineBlock
import proofs.«170548_j59021440581796_1_alg».proof.Proof.LibColumnForms
import proofs.«170548_j59021440581796_1_alg».proof.Proof.Spec
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Spec Cert.Lib.ColumnForms

/-- A lane maximum over the second axis of an a×47 array, started from the −∞ literal, read at row r. -/
theorem rowMax_apply {a : Nat} (src : FVec Ideal ⟨2, ![a, 47]⟩ .f32)
    (h : (⟨2, ![a, 47]⟩ : Shape).Reduces [1] ⟨1, ![a]⟩) (hφ : FKind.Formats .f32)
    (hacc : (0xFF800000#32 : BitVec 32) = FKind.maximumf.neutral .f32 hφ) (r : Fin a) :
    multiReduction (F := Ideal) .maximumf [1] ⟨1, ![a]⟩ src 0xFF800000#32 h hφ hacc (ix1 r) = rowMax (fun k => src (ix2 r k)) := by
  refine (Ideal.multiReduction_maximumf_single src _ h hφ hacc (ix1 r)).trans ?_
  unfold rowMax ninf
  refine congrArg (fun f : Fin 47 → EReal => Finset.fold max (Ideal.ofBits .f32 0xFF800000#32) f Finset.univ) ?_
  funext k
  refine congrArg src ?_
  funext ax; apply Fin.ext
  match ax with
  | ⟨0, _⟩ => rfl
  | ⟨1, _⟩ => rfl

/-- The affine body at the entry (p, q) of its block. -/
theorem lin_pay (x0 : FVec Ideal S10000x100 .bf16) (x1 : FVec Ideal S100x47 .bf16) (x2 : FVec Ideal S1x47 .f32)
    (p : Fin 10000) (q : Fin 47) :
    k0_pay1 (F := Ideal) x0 x1 x2 (ix2 p q) = (∑ k : Fin 100, x0 (ix2 p k) * x1 (ix2 k q)) + x2 (ix2 (0 : Fin 1) q) := by
  have h := Cert.LibAffineBlock.affine_apply dot_S10000x100_S100x47_S10000x47_1_0_0_1_n_n rfl rfl rfl rfl rfl rfl none
    (shapeCast S10000x100 x0 shapeCasts_S10000x100_S10000x100) (shapeCast S100x47 x1 shapeCasts_S100x47_S100x47)
    (shapeCast S1x47 x2 shapeCasts_S1x47_S1x47) broadcasts_S1x47_S10000x47 p q
  refine h.trans ?_
  rw [shapeCast_self, shapeCast_self, shapeCast_self]

/-- The combine bodies (three copies of one text) at an entry of the block. -/
theorem comb_body (v1 v5 : FVec Ideal S10000x47 .f32) (j : S10000x47.Idx) :
    addf (mulf (broadcast S10000x47 (Scalar.ofBits (F := Ideal) .f32 0x3F666666#32)) v1)
      (mulf (broadcast S10000x47 (Scalar.ofBits (F := Ideal) .f32 0x3DCCCCCD#32)) v5) j = c9 * v1 j + c1 * v5 j := rfl

theorem comb_pay1 (x0 x1 : FVec Ideal S10000x47 .f32) (j : S10000x47.Idx) :
    k1_pay1 (F := Ideal) x0 x1 j = c9 * x0 j + c1 * x1 j := by
  refine (comb_body (shapeCast S10000x47 x0 shapeCasts_S10000x47_S10000x47) (shapeCast S10000x47 x1 shapeCasts_S10000x47_S10000x47) j).trans ?_
  rw [shapeCast_self, shapeCast_self]

theorem comb_pay2 (x0 x1 : FVec Ideal S10000x47 .f32) (j : S10000x47.Idx) :
    k2_pay1 (F := Ideal) x0 x1 j = c9 * x0 j + c1 * x1 j := by
  refine (comb_body (shapeCast S10000x47 x0 shapeCasts_S10000x47_S10000x47) (shapeCast S10000x47 x1 shapeCasts_S10000x47_S10000x47) j).trans ?_
  rw [shapeCast_self, shapeCast_self]

theorem comb_pay3 (x0 x1 : FVec Ideal S10000x47 .f32) (j : S10000x47.Idx) :
    k3_pay1 (F := Ideal) x0 x1 j = c9 * x0 j + c1 * x1 j := by
  refine (comb_body (shapeCast S10000x47 x0 shapeCasts_S10000x47_S10000x47) (shapeCast S10000x47 x1 shapeCasts_S10000x47_S10000x47) j).trans ?_
  rw [shapeCast_self, shapeCast_self]

/-- The log-softmax body over an abstract block: entry (p, q) depends on row p only. -/
theorem lsm_body (v1 : FVec Ideal S10000x47 .f32) (p : Fin 10000) (q : Fin 47) :
    subf (subf v1 (broadcastTo S10000x47 (shapeCast S10000x1 (multiReduction .maximumf [1] S10000 v1 0xFF800000#32 reduces_S10000x47_S10000 (.inl rfl) rfl) shapeCasts_S10000_S10000x1) broadcasts_S10000x1_S10000x47))
      (broadcastTo S10000x47 (log (shapeCast S10000x1 (multiReduction .add [1] S10000
        (exp (subf v1 (broadcastTo S10000x47 (shapeCast S10000x1 (multiReduction .maximumf [1] S10000 v1 0xFF800000#32 reduces_S10000x47_S10000 (.inl rfl) rfl) shapeCasts_S10000_S10000x1) broadcasts_S10000x1_S10000x47)))
        0x00000000#32 reduces_S10000x47_S10000 (.inl rfl) rfl) shapeCasts_S10000_S10000x1)) broadcasts_S10000x1_S10000x47) (ix2 p q)
      = lsmRow (fun k => v1 (ix2 p k)) q := by
  have hM : ∀ (p' : Fin 10000) (q' : Fin 47),
      (broadcastTo S10000x47 (shapeCast S10000x1 (multiReduction (F := Ideal) .maximumf [1] S10000 v1 0xFF800000#32 reduces_S10000x47_S10000 (.inl rfl) rfl) shapeCasts_S10000_S10000x1) broadcasts_S10000x1_S10000x47) (ix2 p' q')
        = rowMax (fun k => v1 (ix2 p' k)) := fun p' q' =>
    (broadcastTo_a1_ab_apply _ _ p' q').trans ((shapeCast_a_a1_apply _ _ p' 0).trans (rowMax_apply v1 _ _ _ p'))
  generalize broadcastTo S10000x47 (shapeCast S10000x1 (multiReduction (F := Ideal) .maximumf [1] S10000 v1 0xFF800000#32 reduces_S10000x47_S10000 (.inl rfl) rfl) shapeCasts_S10000_S10000x1) broadcasts_S10000x1_S10000x47 = B at hM ⊢
  unfold lsmRow
  refine congrArg₂ (fun a b : EReal => a - b) (congrArg (fun t : EReal => v1 (ix2 p q) - t) (hM p q)) ?_
  refine (broadcastTo_a1_ab_apply _ _ p q).trans ?_
  refine congrArg Ideal.log ?_
  refine (shapeCast_a_a1_apply _ _ p 0).trans ?_
  refine (rowSum_apply _ _ _ _ p).trans ?_
  refine Finset.sum_congr rfl fun k _ => ?_
  exact congrArg (fun t : EReal => Ideal.exp (v1 (ix2 p k) - t)) (hM p k)

theorem lsm_pay (x0 : FVec Ideal S10000x47 .f32) (p : Fin 10000) (q : Fin 47) :
    k4_pay1 (F := Ideal) x0 (ix2 p q) = lsmRow (fun k => x0 (ix2 p k)) q := by
  refine (lsm_body (shapeCast S10000x47 x0 shapeCasts_S10000x47_S10000x47) p q).trans ?_
  rw [shapeCast_self]

end Cert.KernelIdeal.Pay

end
-- ==== Proof.KernelBlocks.lean ====
/-
  Each pipelined region's result array as one function of the arrays the region finds at its entry.

  Every region walks ten grid points; point t stages rows 10000·t … 10000·t + 9999 of its row-blocked operands (the
  weight matrix and the bias row are staged whole), runs the body and writes the block of the same rows back.  The
  body's value at an entry of the block is the intended function of the entry contents read at the same rows (the
  combination reads one entry of each operand; the affine layer a row of x and a column of W; the log-softmax a whole
  row, which lies inside the block), and the ten blocks cover the array, so the array ends holding that function.
-/
import proofs.«170548_j59021440581796_1_alg».proof.Proof.Gen.KernelIdeal.Frame
import proofs.«170548_j59021440581796_1_alg».proof.Proof.KernelPay
import Idealize.ShloMosaic.Lib.Pipeline.Value

set_option maxRecDepth 16384

noncomputable section

open scoped BigOperators

namespace Cert.KernelIdeal.Blocks

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat Cfg Window)

-- the buffers' contents when a region is entered: a parameter
variable (V : (c : Dev nD) → (b : Ref sig .tc) → Buf (Elt Ideal) ((c : Thread nD τ).loc b))

theorem hz : (![0, 0] : Fin 2 → Nat) = fun _ => 0 := funext fun a => by fin_cases a <;> rfl

/-! ## Region 0: the affine layer (windows: x main_v30 by row blocks, W main_v31 whole, the bias row main_v32 whole, the result main_v33) -/

theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

theorem idx_onto0 : ∀ (q0 : Fin 10), ∃ t : Fin cfg0.N, win0_3.index t = ![q0.val, 0] :=
  (by decide +kernel : ∀ (q0 : Fin 10), ∃ t : Fin grid0.N, win0_3.index t = ![q0.val, 0])

/-- What point t writes back is block t of the affine layer of the arrays as the region finds them. -/
theorem flushed0_eq (c : Dev nD) (t : Fin cfg0.N) :
    (dat0 V c).flushed 3 t = ((cfg0.win 3).blk t).view.read (Elt Ideal)
      (lin (V c main_v30) (V c main_v31) (fun q => V c main_v32 (ix2 (0 : Fin 1) q))) := by
  show (cfg0.win 3).cut (grid0.coords t) ((dat0 V c).after 3 t) = _
  rw [after0_3]
  unfold out0_3
  rw [View.canon_unit_zero hz]
  simp only [View.ld_unit_zero (S := S10000x100) hz, View.ld_unit_zero (S := S100x47) hz, View.ld_unit_zero (S := S1x47) hz]
  obtain ⟨e0, e1, e2, e3, e4, e5, e6⟩ := idx_facts0 t
  funext j
  obtain ⟨p, q, rfl⟩ : ∃ (p : Fin 10000) (q : Fin 47), j = ix2 p q := ⟨j 0, j 1, eq_ix2 j⟩
  refine (lin_pay (iblk0 V c 0 t) (iblk0 V c 1 t) (iblk0 V c 2 t) p q).trans ?_
  refine Eq.trans ?_ (lin_apply (V c main_v30) (V c main_v31) (fun q => V c main_v32 (ix2 (0 : Fin 1) q)) (((cfg0.win 3).blk t).view.emb (ix2 p q))).symm
  refine congrArg₂ (fun a b : EReal => a + b) (Finset.sum_congr rfl fun k _ => congrArg₂ (fun a b : EReal => a * b) ?_ ?_) ?_
  · show V c main_v30 (((cfg0.win 0).blk t).view.emb (ix2 p k)) = _
    refine congrArg (V c main_v30) ?_
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 100 + 1 * k.val = k.val; omega
  · show V c main_v31 (((cfg0.win 1).blk t).view.emb (ix2 k q)) = _
    refine congrArg (V c main_v31) ?_
    funext a; apply Fin.ext
    match a with
    | ⟨0, _⟩ => show win0_1.index t (0 : Fin 2) * 100 + 1 * k.val = k.val; omega
    | ⟨1, _⟩ => show win0_1.index t (1 : Fin 2) * 47 + 1 * q.val = win0_3.index t (1 : Fin 2) * 47 + 1 * q.val; omega
  · show V c main_v32 (((cfg0.win 2).blk t).view.emb (ix2 (0 : Fin 1) q)) = _
    refine congrArg (V c main_v32) ?_
    funext a; apply Fin.ext
    match a with
    | ⟨0, _⟩ => show win0_2.index t (0 : Fin 2) * 1 + 1 * 0 = 0; omega
    | ⟨1, _⟩ => show win0_2.index t (1 : Fin 2) * 47 + 1 * q.val = win0_3.index t (1 : Fin 2) * 47 + 1 * q.val; omega

/-- An index of the result array is in point t's block iff each coordinate is in the block's range on its axis. -/
theorem mem_blk0 (t : Fin cfg0.N) (i : S100000x47.Idx) :
    i ∈ ((cfg0.win 3).blk t).view.set ↔ ∀ a : Fin 2, win0_3.index t a * S10000x47.size a ≤ (i a).val ∧ (i a).val < win0_3.index t a * S10000x47.size a + S10000x47.size a := by
  show i ∈ ((View.whole main_v33).slice (win0_3.rect t)).set ↔ _
  rw [View.set_slice_whole, Rect.mem_set_unit]
  exact Iff.rfl

/-- Every row of the result lies in the block of the point numbered by the row's quotient by 10000. -/
theorem cover0 (i : S100000x47.Idx) : ∃ t : Fin cfg0.N, (cfg0.win 3).flush t = true ∧ i ∈ ((cfg0.win 3).blk t).view.set := by
  have hi0 : (i 0).val < 100000 := (i 0).isLt
  have hi1 : (i 1).val < 47 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 47 ≤ (i 1).val ∧ (i 1).val < win0_3.index t (1 : Fin 2) * 47 + 47; omega

/-- The result array after region 0: the affine layer of the arrays found at entry. -/
theorem final0 (c : Dev nD) : (dat0 V c).arrAt 3 cfg0.N
    = lin (V c main_v30) (V c main_v31) (fun q => V c main_v32 (ix2 (0 : Fin 1) q)) :=
  (dat0 V c).arrAt_eq_of_cover 3 _ (fun t _ => flushed0_eq V c t) (cover0)

/-! ## Region 1: a teleport combination (windows: the aggregate main_v46, the affine layer's result main_v33, the result main_v47) -/

/-- The printed index maps over the grid: both inputs move with the output, block column 0. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2) :=
  (by decide +kernel : ∀ t : Fin grid1.N, _)

/-- Every one of the ten row blocks is some point's. -/
theorem idx_onto1 : ∀ (q0 : Fin 10), ∃ t : Fin cfg1.N, win1_2.index t = ![q0.val, 0] :=
  (by decide +kernel : ∀ (q0 : Fin 10), ∃ t : Fin grid1.N, win1_2.index t = ![q0.val, 0])

/-- What point t writes back is block t of the combination of the two arrays as the region finds them. -/
theorem flushed1_eq (c : Dev nD) (t : Fin cfg1.N) :
    (dat1 V c).flushed 2 t = ((cfg1.win 2).blk t).view.read (Elt Ideal) (comb (V c main_v46) (V c main_v33)) := by
  show (cfg1.win 2).cut (grid1.coords t) ((dat1 V c).after 2 t) = _
  rw [after1_2]
  unfold out1_2
  rw [View.canon_unit_zero hz]
  simp only [View.ld_unit_zero (S := S10000x47) hz]
  obtain ⟨e0, e1, e2, e3⟩ := idx_facts1 t
  funext j
  refine (comb_pay1 (iblk1 V c 0 t) (iblk1 V c 1 t) j).trans ?_
  refine Eq.trans ?_ (comb_apply (V c main_v46) (V c main_v33) (((cfg1.win 2).blk t).view.emb j)).symm
  refine congrArg₂ (fun a b : EReal => c9 * a + c1 * b) ?_ ?_
  · show V c main_v46 (((cfg1.win 0).blk t).view.emb j) = _
    refine congrArg (V c main_v46) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 47 + 1 * (j 1).val = win1_2.index t (1 : Fin 2) * 47 + 1 * (j 1).val; omega
  · show V c main_v33 (((cfg1.win 1).blk t).view.emb j) = _
    refine congrArg (V c main_v33) ?_
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 47 + 1 * (j 1).val = win1_2.index t (1 : Fin 2) * 47 + 1 * (j 1).val; omega

/-- An index of the result array is in point t's block iff each coordinate is in the block's range on its axis. -/
theorem mem_blk1 (t : Fin cfg1.N) (i : S100000x47.Idx) :
    i ∈ ((cfg1.win 2).blk t).view.set ↔ ∀ a : Fin 2, win1_2.index t a * S10000x47.size a ≤ (i a).val ∧ (i a).val < win1_2.index t a * S10000x47.size a + S10000x47.size a := by
  show i ∈ ((View.whole main_v47).slice (win1_2.rect t)).set ↔ _
  rw [View.set_slice_whole, Rect.mem_set_unit]
  exact Iff.rfl

/-- Every row of the result lies in the block of the point numbered by the row's quotient by 10000. -/
theorem cover1 (i : S100000x47.Idx) : ∃ t : Fin cfg1.N, (cfg1.win 2).flush t = true ∧ i ∈ ((cfg1.win 2).blk t).view.set := by
  have hi0 : (i 0).val < 100000 := (i 0).isLt
  have hi1 : (i 1).val < 47 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 47 ≤ (i 1).val ∧ (i 1).val < win1_2.index t (1 : Fin 2) * 47 + 47; omega

/-- The result array after region 1: the combination of its two input arrays, entry by entry. -/
theorem final1 (c : Dev nD) : (dat1 V c).arrAt 2 cfg1.N = comb (V c main_v46) (V c main_v33) :=
  (dat1 V c).arrAt_eq_of_cover 2 _ (fun t _ => flushed1_eq V c t) (cover1)

/-! ## Region 2: a teleport combination (windows: the aggregate main_v60, the affine layer's result main_v33, the result main_v61) -/

/-- The printed index maps over the grid: both inputs move with the output, block column 0. -/
theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2) :=
  (by decide +kernel : ∀ t : Fin grid2.N, _)

/-- Every one of the ten row blocks is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of the combination of the two arrays as the region finds them. -/
theorem flushed2_eq (c : Dev nD) (t : Fin cfg2.N) :
    (dat2 V c).flushed 2 t = ((cfg2.win 2).blk t).view.read (Elt Ideal) (comb (V c main_v60) (V c main_v33)) := by
  show (cfg2.win 2).cut (grid2.coords t) ((dat2 V c).after 2 t) = _
  rw [after2_2]
  unfold out2_2
  rw [View.canon_unit_zero hz]
  simp only [View.ld_unit_zero (S := S10000x47) hz]
  obtain ⟨e0, e1, e2, e3⟩ := idx_facts2 t
  funext j
  refine (comb_pay2 (iblk2 V c 0 t) (iblk2 V c 1 t) j).trans ?_
  refine Eq.trans ?_ (comb_apply (V c main_v60) (V c main_v33) (((cfg2.win 2).blk t).view.emb j)).symm
  refine congrArg₂ (fun a b : EReal => c9 * a + c1 * b) ?_ ?_
  · show V c main_v60 (((cfg2.win 0).blk t).view.emb j) = _
    refine congrArg (V c main_v60) ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 47 + 1 * (j 1).val = win2_2.index t (1 : Fin 2) * 47 + 1 * (j 1).val; omega
  · show V c main_v33 (((cfg2.win 1).blk t).view.emb j) = _
    refine congrArg (V c main_v33) ?_
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 47 + 1 * (j 1).val = win2_2.index t (1 : Fin 2) * 47 + 1 * (j 1).val; omega

/-- An index of the result array is in point t's block iff each coordinate is in the block's range on its axis. -/
theorem mem_blk2 (t : Fin cfg2.N) (i : S100000x47.Idx) :
    i ∈ ((cfg2.win 2).blk t).view.set ↔ ∀ a : Fin 2, win2_2.index t a * S10000x47.size a ≤ (i a).val ∧ (i a).val < win2_2.index t a * S10000x47.size a + S10000x47.size a := by
  show i ∈ ((View.whole main_v61).slice (win2_2.rect t)).set ↔ _
  rw [View.set_slice_whole, Rect.mem_set_unit]
  exact Iff.rfl

/-- Every row of the result lies in the block of the point numbered by the row's quotient by 10000. -/
theorem cover2 (i : S100000x47.Idx) : ∃ t : Fin cfg2.N, (cfg2.win 2).flush t = true ∧ i ∈ ((cfg2.win 2).blk t).view.set := by
  have hi0 : (i 0).val < 100000 := (i 0).isLt
  have hi1 : (i 1).val < 47 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 47 ≤ (i 1).val ∧ (i 1).val < win2_2.index t (1 : Fin 2) * 47 + 47; omega

/-- The result array after region 2: the combination of its two input arrays, entry by entry. -/
theorem final2 (c : Dev nD) : (dat2 V c).arrAt 2 cfg2.N = comb (V c main_v60) (V c main_v33) :=
  (dat2 V c).arrAt_eq_of_cover 2 _ (fun t _ => flushed2_eq V c t) (cover2)

/-! ## Region 3: a teleport combination (windows: the aggregate main_v74, the affine layer's result main_v33, the result main_v75) -/

/-- The printed index maps over the grid: both inputs move with the output, block column 0. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2) :=
  (by decide +kernel : ∀ t : Fin grid3.N, _)

/-- Every one of the ten row blocks is some point's. -/
theorem idx_onto3 : ∀ (q0 : Fin 10), ∃ t : Fin cfg3.N, win3_2.index t = ![q0.val, 0] :=
  (by decide +kernel : ∀ (q0 : Fin 10), ∃ t : Fin grid3.N, win3_2.index t = ![q0.val, 0])

/-- What point t writes back is block t of the combination of the two arrays as the region finds them. -/
theorem flushed3_eq (c : Dev nD) (t : Fin cfg3.N) :
    (dat3 V c).flushed 2 t = ((cfg3.win 2).blk t).view.read (Elt Ideal) (comb (V c main_v74) (V c main_v33)) := by
  show (cfg3.win 2).cut (grid3.coords t) ((dat3 V c).after 2 t) = _
  rw [after3_2]
  unfold out3_2
  rw [View.canon_unit_zero hz]
  simp only [View.ld_unit_zero (S := S10000x47) hz]
  obtain ⟨e0, e1, e2, e3⟩ := idx_facts3 t
  funext j
  refine (comb_pay3 (iblk3 V c 0 t) (iblk3 V c 1 t) j).trans ?_
  refine Eq.trans ?_ (comb_apply (V c main_v74) (V c main_v33) (((cfg3.win 2).blk t).view.emb j)).symm
  refine congrArg₂ (fun a b : EReal => c9 * a + c1 * b) ?_ ?_
  · show V c main_v74 (((cfg3.win 0).blk t).view.emb j) = _
    refine congrArg (V c main_v74) ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 47 + 1 * (j 1).val = win3_2.index t (1 : Fin 2) * 47 + 1 * (j 1).val; omega
  · show V c main_v33 (((cfg3.win 1).blk t).view.emb j) = _
    refine congrArg (V c main_v33) ?_
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 47 + 1 * (j 1).val = win3_2.index t (1 : Fin 2) * 47 + 1 * (j 1).val; omega

/-- An index of the result array is in point t's block iff each coordinate is in the block's range on its axis. -/
theorem mem_blk3 (t : Fin cfg3.N) (i : S100000x47.Idx) :
    i ∈ ((cfg3.win 2).blk t).view.set ↔ ∀ a : Fin 2, win3_2.index t a * S10000x47.size a ≤ (i a).val ∧ (i a).val < win3_2.index t a * S10000x47.size a + S10000x47.size a := by
  show i ∈ ((View.whole main_v75).slice (win3_2.rect t)).set ↔ _
  rw [View.set_slice_whole, Rect.mem_set_unit]
  exact Iff.rfl

/-- Every row of the result lies in the block of the point numbered by the row's quotient by 10000. -/
theorem cover3 (i : S100000x47.Idx) : ∃ t : Fin cfg3.N, (cfg3.win 2).flush t = true ∧ i ∈ ((cfg3.win 2).blk t).view.set := by
  have hi0 : (i 0).val < 100000 := (i 0).isLt
  have hi1 : (i 1).val < 47 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 47 ≤ (i 1).val ∧ (i 1).val < win3_2.index t (1 : Fin 2) * 47 + 47; omega

/-- The result array after region 3: the combination of its two input arrays, entry by entry. -/
theorem final3 (c : Dev nD) : (dat3 V c).arrAt 2 cfg3.N = comb (V c main_v74) (V c main_v33) :=
  (dat3 V c).arrAt_eq_of_cover 2 _ (fun t _ => flushed3_eq V c t) (cover3)

/-! ## Region 4: the row-wise log-softmax (windows: the last hop's result main_v75, the result main_v76) -/

theorem idx_facts4 : ∀ t : Fin cfg4.N, win4_0.index t (0 : Fin 2) = win4_1.index t (0 : Fin 2)
    ∧ win4_0.index t (1 : Fin 2) = 0 ∧ win4_1.index t (1 : Fin 2) = 0 :=
  (by decide +kernel : ∀ t : Fin grid4.N, _)

theorem idx_onto4 : ∀ (q0 : Fin 10), ∃ t : Fin cfg4.N, win4_1.index t = ![q0.val, 0] :=
  (by decide +kernel : ∀ (q0 : Fin 10), ∃ t : Fin grid4.N, win4_1.index t = ![q0.val, 0])

/-- What point t writes back is block t of the log-softmax of the array as the region finds it: a row of the block
    is a whole row of the array. -/
theorem flushed4_eq (c : Dev nD) (t : Fin cfg4.N) :
    (dat4 V c).flushed 1 t = ((cfg4.win 1).blk t).view.read (Elt Ideal) (lsm (V c main_v75)) := by
  show (cfg4.win 1).cut (grid4.coords t) ((dat4 V c).after 1 t) = _
  rw [after4_1]
  unfold out4_1
  rw [View.canon_unit_zero hz]
  simp only [View.ld_unit_zero (S := S10000x47) hz]
  obtain ⟨e0, e1, e2⟩ := idx_facts4 t
  funext j
  obtain ⟨p, q, rfl⟩ : ∃ (p : Fin 10000) (q : Fin 47), j = ix2 p q := ⟨j 0, j 1, eq_ix2 j⟩
  refine (lsm_pay (iblk4 V c 0 t) p q).trans ?_
  refine Eq.trans ?_ (lsm_apply (V c main_v75) (((cfg4.win 1).blk t).view.emb (ix2 p q))).symm
  refine congrArg₂ lsmRow (funext fun k => ?_) (Fin.ext ?_)
  · show V c main_v75 (((cfg4.win 0).blk t).view.emb (ix2 p k)) = _
    refine congrArg (V c main_v75) ?_
    funext a; apply Fin.ext
    match a with
    | ⟨0, _⟩ => show win4_0.index t (0 : Fin 2) * 10000 + 1 * p.val = win4_1.index t (0 : Fin 2) * 10000 + 1 * p.val; omega
    | ⟨1, _⟩ => show win4_0.index t (1 : Fin 2) * 47 + 1 * k.val = k.val; omega
  · show q.val = win4_1.index t (1 : Fin 2) * 47 + 1 * q.val; omega

/-- An index of the result array is in point t's block iff each coordinate is in the block's range on its axis. -/
theorem mem_blk4 (t : Fin cfg4.N) (i : S100000x47.Idx) :
    i ∈ ((cfg4.win 1).blk t).view.set ↔ ∀ a : Fin 2, win4_1.index t a * S10000x47.size a ≤ (i a).val ∧ (i a).val < win4_1.index t a * S10000x47.size a + S10000x47.size a := by
  show i ∈ ((View.whole main_v76).slice (win4_1.rect t)).set ↔ _
  rw [View.set_slice_whole, Rect.mem_set_unit]
  exact Iff.rfl

/-- Every row of the result lies in the block of the point numbered by the row's quotient by 10000. -/
theorem cover4 (i : S100000x47.Idx) : ∃ t : Fin cfg4.N, (cfg4.win 1).flush t = true ∧ i ∈ ((cfg4.win 1).blk t).view.set := by
  have hi0 : (i 0).val < 100000 := (i 0).isLt
  have hi1 : (i 1).val < 47 := (i 1).isLt
  obtain ⟨t, ht⟩ := idx_onto4 ⟨(i 0).val / 10000, by omega⟩
  have q0 : win4_1.index t (0 : Fin 2) = (i 0).val / 10000 := congrFun ht 0
  have q1 : win4_1.index t (1 : Fin 2) = 0 := congrFun ht 1
  refine ⟨t, flush4_1 t, ?_⟩
  rw [mem_blk4]
  intro a
  match a with
  | ⟨0, _⟩ => show win4_1.index t (0 : Fin 2) * 10000 ≤ (i 0).val ∧ (i 0).val < win4_1.index t (0 : Fin 2) * 10000 + 10000; omega
  | ⟨1, _⟩ => show win4_1.index t (1 : Fin 2) * 47 ≤ (i 1).val ∧ (i 1).val < win4_1.index t (1 : Fin 2) * 47 + 47; omega

/-- The result array after region 4: the row-wise log-softmax of the array found at entry. -/
theorem final4 (c : Dev nD) : (dat4 V c).arrAt 1 cfg4.N = lsm (V c main_v75) :=
  (dat4 V c).arrAt_eq_of_cover 1 _ (fun t _ => flushed4_eq V c t) (cover4)

end Cert.KernelIdeal.Blocks

end
-- ==== Proof.KernelValue.lean ====
/-
  The idealized kernel's result array as the staged composition.

  The fold through the program's eleven segments is read boundary by boundary.  Before the first region the host has
  the edge index vectors, the edge weights, and the affine layer's operands (a change of float format is the identity
  here, and the bias is the bias vector as one row).  Each region replaces its result array by the region's function of
  its entry arrays and leaves every other buffer; each line of host operations between two regions computes one
  propagation from buffers it does not change.  So the result is the log-softmax of the third combination.
-/
import proofs.«170548_j59021440581796_1_alg».proof.Proof.KernelBlocks
import Idealize.ShloMosaic.Lib.StableHlo.Run

set_option maxRecDepth 16384

noncomputable section

open scoped BigOperators

namespace Cert.KernelIdeal.Host

open Cert.KernelIdeal Cert.KernelIdeal.Gen Cert.KernelIdeal.Blocks Cert.Spec
open Idealize.ShloMosaic Idealize.ShloMosaic.TcCoe Idealize.ShloMosaic.ValueIdx Idealize.SL.Sem Idealize.ShloMosaic.StableHlo

/-- A buffer that no operation of a line of host operations writes keeps its contents across the line. -/
macro "kept_by_line" ops:ident : tactic => `(tactic|
  (refine StableHlo.after_of_forall_not_mem _ _ (List.forall_iff_forall_mem.mp ?_)
   simp only [$ops:ident, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-- An i32 edge list [2, 1600000], a per-edge index vector, a per-edge weight vector, a per-node vector, a node array. -/
abbrev EdgeList : Type := IVec S2x1600000 32
abbrev EdgeIdx : Type := IVec S1700000 32
abbrev EdgeW : Type := FVec Ideal S1700000 .f32
abbrev NodeV : Type := FVec Ideal S100000 .f32
abbrev NodeArr : Type := FVec Ideal S100000x47 .f32

/-- Row 0 of the edge list followed by the 100000 self loops: every edge's source node. -/
def srcIdx (e : EdgeList) : EdgeIdx :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list followed by the self loops: every edge's destination node. -/
def dstIdx (e : EdgeList) : EdgeIdx :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index made a gather's start index: negative values wrapped by the node count, as a one-column matrix. -/
def wrapIdx (v : EdgeIdx) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node: ones scattered and added at the destinations. -/
def degOf (d : EdgeIdx) : NodeV :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))

/-- The inverse square root of the degree where it is positive, zero elsewhere. -/
def dinvOf (d : EdgeIdx) : NodeV :=
  select (cmpf (F := Ideal) .ogt (degOf d) (broadcastInDim S100000 ![] bcast_S_S100000 (constant (F := Ideal) S_ .f32 0x00000000#32))) (Host.rsqrt (F := Ideal) (degOf d)) (broadcastInDim S100000 ![] bcast_S_S100000 (id (constant (F := Ideal) S_ .f32 0x00000000#32)))

/-- The symmetric edge weight: the product of the two end nodes' inverse square-root degrees. -/
def normOf (s d : EdgeIdx) : EdgeW :=
  mulf (F := Ideal) (Host.gather gather_S100000_S1700000x1_S1700000_n_0_n_n_0_1_1 (dinvOf d) (wrapIdx s)) (Host.gather gather_S100000_S1700000x1_S1700000_n_0_n_n_0_1_1 (dinvOf d) (wrapIdx d))

/-- One propagation: gather the source rows, scale by the edge weights, scatter and add at the destinations. -/
def hopOf (n : EdgeW) (s d : EdgeIdx) (h : NodeArr) : NodeArr :=
  Host.scatterAdd (F := Ideal) scatter_S100000x47_S1700000x1_S1700000x47_1_0_0_1 (broadcastInDim S100000x47 ![] bcast_S_S100000x47 (constant (F := Ideal) S_ .f32 0x00000000#32)) (broadcastInDim S1700000x1 ![0] bcast_S1700000_S1700000x1_0 d) (mulf (F := Ideal) (broadcastInDim S1700000x47 ![0, 1] bcast_S1700000x1_S1700000x47_0_1 (broadcastInDim S1700000x1 ![0] bcast_S1700000_S1700000x1_0 n)) (Host.gather gather_S100000x47_S1700000x1_S1700000x47_1_0_n_n_0_1_147 h (wrapIdx s)))

variable (m : (ℓ : Loc nD τ sig) → Buf (Elt Ideal) ℓ) (ρ : Dev nD → PrngReg) (c : Dev nD)

/-- The edge list as launched. -/
abbrev eOf : EdgeList := m ((c.tc : Thread nD τ).loc main_arg1)

/-- The affine layer of the launched arguments. -/
def h0K : NodeArr :=
  lin (m ((c.tc : Thread nD τ).loc main_arg0)) (m ((c.tc : Thread nD τ).loc main_arg2)) (fun q => m ((c.tc : Thread nD τ).loc main_arg3) (ix1 q))

/-- One hop followed by the combination. -/
def stepK (h : NodeArr) : NodeArr :=
  comb (hopOf (normOf (srcIdx (eOf m c)) (dstIdx (eOf m c))) (srcIdx (eOf m c)) (dstIdx (eOf m c)) h) (h0K m c)

/-! ## Before the first region -/

/-- The buffers after the first stretch of host operations, and after the three operations of the select that follow. -/
def U1 : Valuation τ sig (Elt Ideal) := StableHlo.after hostOps0 (W0 m ρ c)
def U2 : Valuation τ sig (Elt Ideal) := StableHlo.after hostOps0_1 (U1 m ρ c)

theorem U1_v3 : U1 m ρ c (Proc.devRef .tc main_v3) = srcIdx (eOf m c) := by
  show StableHlo.after hostOps0 (W0 m ρ c) (Proc.devRef .tc main_v3) = _
  (after_results_simp <;> (try simp only [cast_eq])) <;> rfl
theorem U1_v6 : U1 m ρ c (Proc.devRef .tc main_v6) = dstIdx (eOf m c) := by
  show StableHlo.after hostOps0 (W0 m ρ c) (Proc.devRef .tc main_v6) = _
  (after_results_simp <;> (try simp only [cast_eq])) <;> rfl
theorem U1_v12 : U1 m ρ c (Proc.devRef .tc main_v12)
    = cmpf (F := Ideal) .ogt (degOf (dstIdx (eOf m c))) (broadcastInDim S100000 ![] bcast_S_S100000 (constant (F := Ideal) S_ .f32 0x00000000#32)) := by
  show StableHlo.after hostOps0 (W0 m ρ c) (Proc.devRef .tc main_v12) = _
  (after_results_simp <;> (try simp only [cast_eq])) <;> rfl
theorem U1_v13 : U1 m ρ c (Proc.devRef .tc main_v13) = Host.rsqrt (F := Ideal) (degOf (dstIdx (eOf m c))) := by
  show StableHlo.after hostOps0 (W0 m ρ c) (Proc.devRef .tc main_v13) = _
  (after_results_simp <;> (try simp only [cast_eq])) <;> rfl
theorem U1_cst_2 : U1 m ρ c (Proc.devRef .tc main_cst_2) = constant (F := Ideal) S_ .f32 0x00000000#32 := by
  show StableHlo.after hostOps0 (W0 m ρ c) (Proc.devRef .tc main_cst_2) = _
  (after_results_simp <;> (try simp only [cast_eq])) <;> rfl

theorem U2_v14 : U2 m ρ c (Proc.devRef .tc main_v14) = dinvOf (dstIdx (eOf m c)) := by
  show StableHlo.after hostOps0_1 (U1 m ρ c) (Proc.devRef .tc main_v14) = _
  after_results_simp
  try simp only [cast_eq]
  rw [U1_v12, U1_v13, U1_cst_2]
  rfl
theorem U2_v3 : U2 m ρ c (Proc.devRef .tc main_v3) = srcIdx (eOf m c) :=
  (show StableHlo.after hostOps0_1 (U1 m ρ c) (Proc.devRef .tc main_v3) = U1 m ρ c (Proc.devRef .tc main_v3) by kept_by_line hostOps0_1).trans (U1_v3 m ρ c)
theorem U2_v6 : U2 m ρ c (Proc.devRef .tc main_v6) = dstIdx (eOf m c) :=
  (show StableHlo.after hostOps0_1 (U1 m ρ c) (Proc.devRef .tc main_v6) = U1 m ρ c (Proc.devRef .tc main_v6) by kept_by_line hostOps0_1).trans (U1_v6 m ρ c)

theorem W3_v3 : W3 m ρ c (Proc.devRef .tc main_v3) = srcIdx (eOf m c) :=
  (show StableHlo.after hostOps0_2 (U2 m ρ c) (Proc.devRef .tc main_v3) = U2 m ρ c (Proc.devRef .tc main_v3) by kept_by_line hostOps0_2).trans (U2_v3 m ρ c)
theorem W3_v6 : W3 m ρ c (Proc.devRef .tc main_v6) = dstIdx (eOf m c) :=
  (show StableHlo.after hostOps0_2 (U2 m ρ c) (Proc.devRef .tc main_v6) = U2 m ρ c (Proc.devRef .tc main_v6) by kept_by_line hostOps0_2).trans (U2_v6 m ρ c)
theorem W3_v29 : W3 m ρ c (Proc.devRef .tc main_v29) = normOf (srcIdx (eOf m c)) (dstIdx (eOf m c)) := by
  show StableHlo.after hostOps0_2 (U2 m ρ c) (Proc.devRef .tc main_v29) = _
  after_results_simp
  try simp only [cast_eq]
  rw [U2_v14, U2_v3, U2_v6]
  rfl
theorem W3_v30 : W3 m ρ c (Proc.devRef .tc main_v30) = (truncf (F := Ideal) .bf16 (m ((c.tc : Thread nD τ).loc main_arg0) : FVec Ideal S100000x100 .f32) bitsLt_bf16_f32 : FVec Ideal S100000x100 .bf16) := by
  show StableHlo.after hostOps0_2 (StableHlo.after hostOps0_1 (StableHlo.after hostOps0 (W0 m ρ c))) (Proc.devRef .tc main_v30) = _
  (after_results_simp <;> (try simp only [cast_eq])) <;> rfl
theorem W3_v31 : W3 m ρ c (Proc.devRef .tc main_v31) = (truncf (F := Ideal) .bf16 (m ((c.tc : Thread nD τ).loc main_arg2) : FVec Ideal S100x47 .f32) bitsLt_bf16_f32 : FVec Ideal S100x47 .bf16) := by
  show StableHlo.after hostOps0_2 (StableHlo.after hostOps0_1 (StableHlo.after hostOps0 (W0 m ρ c))) (Proc.devRef .tc main_v31) = _
  (after_results_simp <;> (try simp only [cast_eq])) <;> rfl
theorem W3_v32 : W3 m ρ c (Proc.devRef .tc main_v32) = (shapeCast S1x47 (m ((c.tc : Thread nD τ).loc main_arg3) : FVec Ideal S47 .f32) shapeCasts_S47_S1x47 : FVec Ideal S1x47 .f32) := by
  show StableHlo.after hostOps0_2 (StableHlo.after hostOps0_1 (StableHlo.after hostOps0 (W0 m ρ c))) (Proc.devRef .tc main_v32) = _
  (after_results_simp <;> (try simp only [cast_eq])) <;> rfl

/-- The bias vector cast to one row reads, at column q, the vector's entry q. -/
theorem bias_row (b : FVec Ideal S47 .f32) (q : Fin 47) :
    shapeCast S1x47 b shapeCasts_S47_S1x47 (ix2 (0 : Fin 1) q) = b (ix1 q) :=
  shapeCast_apply b shapeCasts_S47_S1x47 _ _ (by
    rw [Shape.rowMajor_val_two, Shape.rowMajor_val_one]
    show q.val = 0 * 47 + q.val
    omega)

/-! ## Region 0 and after -/

theorem W4_v33 : W4 m ρ c (Proc.devRef .tc main_v33) = h0K m c := by
  refine (W4_arr m ρ c 3).trans ((final0 (V3 m ρ) c).trans ?_)
  show lin (W3 m ρ c (Proc.devRef .tc main_v30)) (W3 m ρ c (Proc.devRef .tc main_v31)) (fun q => W3 m ρ c (Proc.devRef .tc main_v32) (ix2 (0 : Fin 1) q)) = _
  rw [W3_v30, W3_v31, W3_v32]
  unfold h0K
  refine congrArg (lin _ _) (funext fun q => bias_row _ q)
theorem W4_v3 : W4 m ρ c (Proc.devRef .tc main_v3) = srcIdx (eOf m c) :=
  (W4_of_ne m ρ c main_v3 (by decide)).trans (W3_v3 m ρ c)
theorem W4_v6 : W4 m ρ c (Proc.devRef .tc main_v6) = dstIdx (eOf m c) :=
  (W4_of_ne m ρ c main_v6 (by decide)).trans (W3_v6 m ρ c)
theorem W4_v29 : W4 m ρ c (Proc.devRef .tc main_v29) = normOf (srcIdx (eOf m c)) (dstIdx (eOf m c)) :=
  (W4_of_ne m ρ c main_v29 (by decide)).trans (W3_v29 m ρ c)

/-! ## The first hop -/

theorem W5_v46 : W5 m ρ c (Proc.devRef .tc main_v46)
    = hopOf (normOf (srcIdx (eOf m c)) (dstIdx (eOf m c))) (srcIdx (eOf m c)) (dstIdx (eOf m c)) (h0K m c) := by
  show StableHlo.after hostOps1 (W4 m ρ c) (Proc.devRef .tc main_v46) = _
  after_results_simp
  try simp only [cast_eq]
  rw [W4_v6, W4_v29, W4_v3, W4_v33]
  rfl
theorem W5_v3 : W5 m ρ c (Proc.devRef .tc main_v3) = srcIdx (eOf m c) :=
  (show StableHlo.after hostOps1 (W4 m ρ c) (Proc.devRef .tc main_v3) = W4 m ρ c (Proc.devRef .tc main_v3) by kept_by_line hostOps1).trans (W4_v3 m ρ c)
theorem W5_v6 : W5 m ρ c (Proc.devRef .tc main_v6) = dstIdx (eOf m c) :=
  (show StableHlo.after hostOps1 (W4 m ρ c) (Proc.devRef .tc main_v6) = W4 m ρ c (Proc.devRef .tc main_v6) by kept_by_line hostOps1).trans (W4_v6 m ρ c)
theorem W5_v29 : W5 m ρ c (Proc.devRef .tc main_v29) = normOf (srcIdx (eOf m c)) (dstIdx (eOf m c)) :=
  (show StableHlo.after hostOps1 (W4 m ρ c) (Proc.devRef .tc main_v29) = W4 m ρ c (Proc.devRef .tc main_v29) by kept_by_line hostOps1).trans (W4_v29 m ρ c)
theorem W5_v33 : W5 m ρ c (Proc.devRef .tc main_v33) = h0K m c :=
  (show StableHlo.after hostOps1 (W4 m ρ c) (Proc.devRef .tc main_v33) = W4 m ρ c (Proc.devRef .tc main_v33) by kept_by_line hostOps1).trans (W4_v33 m ρ c)

theorem W6_v47 : W6 m ρ c (Proc.devRef .tc main_v47) = stepK m c (h0K m c) := by
  refine (W6_arr m ρ c 2).trans ((final1 (V5 m ρ) c).trans ?_)
  show comb (W5 m ρ c (Proc.devRef .tc main_v46)) (W5 m ρ c (Proc.devRef .tc main_v33)) = _
  rw [W5_v46, W5_v33]
  rfl
theorem W6_v3 : W6 m ρ c (Proc.devRef .tc main_v3) = srcIdx (eOf m c) :=
  (W6_of_ne m ρ c main_v3 (by decide)).trans (W5_v3 m ρ c)
theorem W6_v6 : W6 m ρ c (Proc.devRef .tc main_v6) = dstIdx (eOf m c) :=
  (W6_of_ne m ρ c main_v6 (by decide)).trans (W5_v6 m ρ c)
theorem W6_v29 : W6 m ρ c (Proc.devRef .tc main_v29) = normOf (srcIdx (eOf m c)) (dstIdx (eOf m c)) :=
  (W6_of_ne m ρ c main_v29 (by decide)).trans (W5_v29 m ρ c)
theorem W6_v33 : W6 m ρ c (Proc.devRef .tc main_v33) = h0K m c :=
  (W6_arr m ρ c 1).trans ((((dat1 (V5 m ρ) c).arrAt_in 1 rfl cfg1.N).trans (A_eq1 (V5 m ρ) c 1)).trans (W5_v33 m ρ c))

/-! ## The second hop -/

theorem W7_v60 : W7 m ρ c (Proc.devRef .tc main_v60)
    = hopOf (normOf (srcIdx (eOf m c)) (dstIdx (eOf m c))) (srcIdx (eOf m c)) (dstIdx (eOf m c)) (stepK m c (h0K m c)) := by
  show StableHlo.after hostOps2 (W6 m ρ c) (Proc.devRef .tc main_v60) = _
  after_results_simp
  try simp only [cast_eq]
  rw [W6_v6, W6_v29, W6_v3, W6_v47]
  rfl
theorem W7_v3 : W7 m ρ c (Proc.devRef .tc main_v3) = srcIdx (eOf m c) :=
  (show StableHlo.after hostOps2 (W6 m ρ c) (Proc.devRef .tc main_v3) = W6 m ρ c (Proc.devRef .tc main_v3) by kept_by_line hostOps2).trans (W6_v3 m ρ c)
theorem W7_v6 : W7 m ρ c (Proc.devRef .tc main_v6) = dstIdx (eOf m c) :=
  (show StableHlo.after hostOps2 (W6 m ρ c) (Proc.devRef .tc main_v6) = W6 m ρ c (Proc.devRef .tc main_v6) by kept_by_line hostOps2).trans (W6_v6 m ρ c)
theorem W7_v29 : W7 m ρ c (Proc.devRef .tc main_v29) = normOf (srcIdx (eOf m c)) (dstIdx (eOf m c)) :=
  (show StableHlo.after hostOps2 (W6 m ρ c) (Proc.devRef .tc main_v29) = W6 m ρ c (Proc.devRef .tc main_v29) by kept_by_line hostOps2).trans (W6_v29 m ρ c)
theorem W7_v33 : W7 m ρ c (Proc.devRef .tc main_v33) = h0K m c :=
  (show StableHlo.after hostOps2 (W6 m ρ c) (Proc.devRef .tc main_v33) = W6 m ρ c (Proc.devRef .tc main_v33) by kept_by_line hostOps2).trans (W6_v33 m ρ c)

theorem W8_v61 : W8 m ρ c (Proc.devRef .tc main_v61) = stepK m c (stepK m c (h0K m c)) := by
  refine (W8_arr m ρ c 2).trans ((final2 (V7 m ρ) c).trans ?_)
  show comb (W7 m ρ c (Proc.devRef .tc main_v60)) (W7 m ρ c (Proc.devRef .tc main_v33)) = _
  rw [W7_v60, W7_v33]
  rfl
theorem W8_v3 : W8 m ρ c (Proc.devRef .tc main_v3) = srcIdx (eOf m c) :=
  (W8_of_ne m ρ c main_v3 (by decide)).trans (W7_v3 m ρ c)
theorem W8_v6 : W8 m ρ c (Proc.devRef .tc main_v6) = dstIdx (eOf m c) :=
  (W8_of_ne m ρ c main_v6 (by decide)).trans (W7_v6 m ρ c)
theorem W8_v29 : W8 m ρ c (Proc.devRef .tc main_v29) = normOf (srcIdx (eOf m c)) (dstIdx (eOf m c)) :=
  (W8_of_ne m ρ c main_v29 (by decide)).trans (W7_v29 m ρ c)
theorem W8_v33 : W8 m ρ c (Proc.devRef .tc main_v33) = h0K m c :=
  (W8_arr m ρ c 1).trans ((((dat2 (V7 m ρ) c).arrAt_in 1 rfl cfg2.N).trans (A_eq2 (V7 m ρ) c 1)).trans (W7_v33 m ρ c))

/-! ## The third hop and the log-softmax -/

theorem W9_v74 : W9 m ρ c (Proc.devRef .tc main_v74)
    = hopOf (normOf (srcIdx (eOf m c)) (dstIdx (eOf m c))) (srcIdx (eOf m c)) (dstIdx (eOf m c)) (stepK m c (stepK m c (h0K m c))) := by
  show StableHlo.after hostOps3 (W8 m ρ c) (Proc.devRef .tc main_v74) = _
  after_results_simp
  try simp only [cast_eq]
  rw [W8_v6, W8_v29, W8_v3, W8_v61]
  rfl
theorem W9_v33 : W9 m ρ c (Proc.devRef .tc main_v33) = h0K m c :=
  (show StableHlo.after hostOps3 (W8 m ρ c) (Proc.devRef .tc main_v33) = W8 m ρ c (Proc.devRef .tc main_v33) by kept_by_line hostOps3).trans (W8_v33 m ρ c)

theorem W10_v75 : W10 m ρ c (Proc.devRef .tc main_v75) = stepK m c (stepK m c (stepK m c (h0K m c))) := by
  refine (W10_arr m ρ c 2).trans ((final3 (V9 m ρ) c).trans ?_)
  show comb (W9 m ρ c (Proc.devRef .tc main_v74)) (W9 m ρ c (Proc.devRef .tc main_v33)) = _
  rw [W9_v74, W9_v33]
  rfl

/-- The result array at the end of the fold: the log-softmax of the third combination. -/
theorem W11_v76 : W11 m ρ c (Proc.devRef .tc main_v76) = lsm (stepK m c (stepK m c (stepK m c (h0K m c)))) := by
  refine (W11_arr m ρ c 1).trans ((final4 (V10 m ρ) c).trans ?_)
  show lsm (W10 m ρ c (Proc.devRef .tc main_v75)) = _
  rw [W10_v75]

end Cert.KernelIdeal.Host

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«170548_j59021440581796_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«170548_j59021440581796_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.RefHost.lean ====
/-
  The reference's stage functions: the graph terms (named, never opened), the affine layer, the teleport combination and
  the row-wise log-softmax as the host computes them, each dense stage read entry by entry as the shared specification.

  The graph stages (the edge index vectors, the degrees, the edge weights, one propagation) are named but never opened:
  the kernel computes them by the same host operations.
-/
import proofs.«170548_j59021440581796_1_alg».proof.Proof.Gen.ReferenceIdeal
import proofs.«170548_j59021440581796_1_alg».proof.Proof.LibHostAffine
import proofs.«170548_j59021440581796_1_alg».proof.Proof.Spec
import Idealize.ShloMosaic.Lib.Pipeline.Value
import Idealize.ShloMosaic.PureOps.Ideal.Laws

set_option Elab.async false

noncomputable section

open scoped BigOperators

namespace Cert.ReferenceIdeal.Host

open Cert.ReferenceIdeal Cert.ReferenceIdeal.Gen Idealize.ShloMosaic Idealize.ShloMosaic.TcCoe Idealize.ShloMosaic.ValueIdx Idealize.SL.Sem Idealize.ShloMosaic.StableHlo Cert.Spec

/-- An i32 edge list [2, 1600000], a per-edge index vector, a per-edge weight vector, a per-node vector, a node array. -/
abbrev EdgeList : Type := IVec S2x1600000 32
abbrev EdgeIdx : Type := IVec S1700000 32
abbrev EdgeW : Type := FVec Ideal S1700000 .f32
abbrev NodeV : Type := FVec Ideal S100000 .f32
abbrev NodeArr : Type := FVec Ideal S100000x47 .f32

/-- Row 0 of the edge list followed by the 100000 self loops: every edge's source node. -/
def srcIdx (e : EdgeList) : EdgeIdx :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list followed by the self loops: every edge's destination node. -/
def dstIdx (e : EdgeList) : EdgeIdx :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index made a gather's start index: negative values wrapped by the node count, as a one-column matrix. -/
def wrapIdx (v : EdgeIdx) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node: ones scattered and added at the destinations. -/
def degOf (d : EdgeIdx) : NodeV :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))

/-- The inverse square root of the degree where it is positive, zero elsewhere. -/
def dinvOf (d : EdgeIdx) : NodeV :=
  select (cmpf (F := Ideal) .ogt (degOf d) (broadcastInDim S100000 ![] bcast_S_S100000 (constant (F := Ideal) S_ .f32 0x00000000#32))) (Host.rsqrt (F := Ideal) (degOf d)) (broadcastInDim S100000 ![] bcast_S_S100000 (id (constant (F := Ideal) S_ .f32 0x00000000#32)))

/-- The symmetric edge weight: the product of the two end nodes' inverse square-root degrees. -/
def normOf (s d : EdgeIdx) : EdgeW :=
  mulf (F := Ideal) (Host.gather gather_S100000_S1700000x1_S1700000_n_0_n_n_0_1_1 (dinvOf d) (wrapIdx s)) (Host.gather gather_S100000_S1700000x1_S1700000_n_0_n_n_0_1_1 (dinvOf d) (wrapIdx d))

/-- One propagation: gather the source rows, scale by the edge weights, scatter and add at the destinations. -/
def hopOf (n : EdgeW) (s d : EdgeIdx) (h : NodeArr) : NodeArr :=
  Host.scatterAdd (F := Ideal) scatter_S100000x47_S1700000x1_S1700000x47_1_0_0_1 (broadcastInDim S100000x47 ![] bcast_S_S100000x47 (constant (F := Ideal) S_ .f32 0x00000000#32)) (broadcastInDim S1700000x1 ![0] bcast_S1700000_S1700000x1_0 d) (mulf (F := Ideal) (broadcastInDim S1700000x47 ![0, 1] bcast_S1700000x1_S1700000x47_0_1 (broadcastInDim S1700000x1 ![0] bcast_S1700000_S1700000x1_0 n)) (Host.gather gather_S100000x47_S1700000x1_S1700000x47_1_0_n_n_0_1_147 h (wrapIdx s)))

/-- The affine layer as the host computes it: a plain product plus the bias vector broadcast over the rows. -/
def linH (x : FVec Ideal S100000x100 .f32) (w : FVec Ideal S100x47 .f32) (b : FVec Ideal S47 .f32) : NodeArr :=
  addf (Host.dotGeneral dot_S100000x100_S100x47_S100000x47_1_0_0_1_n_n none x w) (broadcastInDim S100000x47 ![0, 1] bcast_S1x47_S100000x47_0_1 (broadcastInDim S1x47 ![1] bcast_S47_S1x47_1 b))

/-- The teleport combination as the host computes it. -/
def combH (a h0 : NodeArr) : NodeArr :=
  addf (mulf (broadcastInDim S100000x47 ![] bcast_S_S100000x47 (constant S_ .f32 0x3F666666#32)) a) (mulf (broadcastInDim S100000x47 ![] bcast_S_S100000x47 (constant S_ .f32 0x3DCCCCCD#32)) h0)

/-- An array minus its row maxima (each maximum taken once more with the −∞ literal). -/
def shiftH (h : NodeArr) : NodeArr :=
  subf h (broadcastInDim S100000x47 ![0, 1] bcast_S100000x1_S100000x47_0_1 (broadcastInDim S100000x1 ![0] bcast_S100000_S100000x1_0 (maximumf (broadcastInDim S100000 ![] bcast_S_S100000 (constant S_ .f32 0xFF800000#32)) (Host.reduce FloatOps.maximumf h (constant S_ .f32 0xFF800000#32) reducesTo_S100000x47_S100000_d1 h_S_))))

/-- The log-softmax as the host computes it. -/
def lsmH (h : NodeArr) : NodeArr :=
  subf (shiftH h) (broadcastInDim S100000x47 ![0, 1] bcast_S100000x1_S100000x47_0_1 (Host.log (broadcastInDim S100000x1 ![0] bcast_S100000_S100000x1_0 (Host.reduceAdd (Host.exp (shiftH h)) (constant S_ .f32 0x00000000#32) reducesTo_S100000x47_S100000_d1 h_S_))))

/-! ## The dense stages, entry by entry -/

/-- A column broadcast along the rows reads the column's entry of the row. -/
theorem bcast_col_apply {α : Type} {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply (![0, 1] : Fin 2 → Fin 2) h v (ix2 p q) (ix2 p (0 : Fin 1)) (fun ax => by
    match ax with
    | ⟨0, _⟩ =>
      show p.val = if a = 1 then 0 else p.val
      split
      · have := p.isLt; omega
      · rfl
    | ⟨1, _⟩ => rfl)

/-- A vector made a column reads the vector's entry of the row. -/
theorem vec_col_apply {α : Type} {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim ⟨2, ![a, 1]⟩ (![0] : Fin 1 → Fin 2) h v (ix2 p z) = v (ix1 p) :=
  broadcastInDim_apply (![0] : Fin 1 → Fin 2) h v (ix2 p z) (ix1 p) (fun ax => by
    match ax with
    | ⟨0, _⟩ =>
      show p.val = if a = 1 then 0 else p.val
      split
      · have := p.isLt; omega
      · rfl)

theorem reduces_rows : S100000x47.Reduces [1] S100000 := by decide

/-- The host's affine layer is the specification's, the bias read by its one coordinate. -/
theorem linH_eq (x : FVec Ideal S100000x100 .f32) (w : FVec Ideal S100x47 .f32) (b : FVec Ideal S47 .f32) :
    linH x w b = lin x w (fun q => b (ix1 q)) :=
  eq_ofFn _ _ fun p q =>
    Cert.LibHostAffine.affine_apply dot_S100000x100_S100x47_S100000x47_1_0_0_1_n_n rfl rfl rfl rfl rfl rfl none x w b
      bcast_S47_S1x47_1 bcast_S1x47_S100000x47_0_1 p q

/-- The host's combination is the specification's. -/
theorem combH_eq (a h0 : NodeArr) : combH a h0 = comb a h0 := rfl

/-- A row's maximum as the host folds it, started from the −∞ literal. -/
theorem hostRowMax_apply (h : NodeArr) (p : Fin 100000) :
    Host.reduce FloatOps.maximumf h (constant (F := Ideal) S_ .f32 0xFF800000#32) reducesTo_S100000x47_S100000_d1 h_S_ (ix1 p)
      = rowMax (fun k => h (ix2 p k)) := by
  refine (Host.reduce_eq_fold_single FloatOps.maximumf h _ reducesTo_S100000x47_S100000_d1 reduces_rows h_S_ (ix1 p)).trans ?_
  unfold rowMax ninf
  refine congrArg (fun f : Fin 47 → EReal => Finset.fold max (Ideal.ofBits .f32 0xFF800000#32) f Finset.univ) ?_
  funext k
  refine congrArg h ?_
  funext ax; apply Fin.ext
  match ax with
  | ⟨0, _⟩ => rfl
  | ⟨1, _⟩ => rfl

/-- The host's shifted array at an entry: the entry minus its row's maximum. -/
theorem shiftH_apply (h : NodeArr) (p : Fin 100000) (q : Fin 47) :
    shiftH h (ix2 p q) = h (ix2 p q) - rowMax (fun k => h (ix2 p k)) := by
  unfold shiftH
  refine (subf_apply _ _ _).trans ?_
  refine congrArg (fun t : EReal => h (ix2 p q) - t) ?_
  refine (bcast_col_apply _ _ p q).trans ?_
  refine (vec_col_apply _ _ p 0).trans ?_
  refine (maximumf_apply _ _ _).trans ?_
  refine (congrArg (fun t : EReal => max (Ideal.ofBits .f32 0xFF800000#32) t) (hostRowMax_apply h p)).trans ?_
  exact max_ninf_rowMax _

/-- A row's sum as the host takes it, started from the zero literal. -/
theorem hostRowSum_apply (y : NodeArr) (p : Fin 100000) :
    Host.reduceAdd y (constant (F := Ideal) S_ .f32 0x00000000#32) reducesTo_S100000x47_S100000_d1 h_S_ (ix1 p)
      = ∑ k : Fin 47, y (ix2 p k) := by
  simp only [Host.reduceAdd, Ideal.hostReduceAdd_def]
  rw [Ideal.hostReduceAdd_single reducesTo_S100000x47_S100000_d1 reduces_rows]
  have z : (constant (F := Ideal) S_ .f32 0x00000000#32) (Shape.Idx.first h_S_) = 0 := Ideal.ofBits_zero_f32
  rw [z, zero_add]
  refine Finset.sum_congr rfl fun k _ => congrArg y ?_
  funext ax; apply Fin.ext
  match ax with
  | ⟨0, _⟩ => rfl
  | ⟨1, _⟩ => rfl

/-- The host's exponential and logarithm read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The host's log-softmax is the specification's. -/
theorem lsmH_eq (h : NodeArr) : lsmH h = lsm h :=
  eq_ofFn _ _ fun p q => by
    unfold lsmH lsmRow
    refine (subf_apply _ _ _).trans ?_
    refine congrArg₂ (fun a b : EReal => a - b) (shiftH_apply h p q) ?_
    refine (bcast_col_apply _ _ p q).trans ?_
    refine (hostLog_apply _ _).trans ?_
    refine congrArg Ideal.log ?_
    refine (vec_col_apply _ _ p 0).trans ?_
    refine (hostRowSum_apply _ p).trans ?_
    exact Finset.sum_congr rfl fun k _ => (hostExp_apply _ _).trans (congrArg Ideal.exp (shiftH_apply h p k))

end Cert.ReferenceIdeal.Host

end
-- ==== Proof.RefStages.lean ====
/-
  The reference's 128 host operations cut into eleven consecutive stages.
-/
import proofs.«170548_j59021440581796_1_alg».proof.Proof.RefRun
import proofs.«170548_j59021440581796_1_alg».proof.Proof.RefHost

set_option Elab.async false

noncomputable section

open scoped BigOperators

namespace Cert.ReferenceIdeal.Host

open Cert.ReferenceIdeal Cert.ReferenceIdeal.Gen Idealize.ShloMosaic Idealize.ShloMosaic.TcCoe Idealize.ShloMosaic.ValueIdx Idealize.SL.Sem Idealize.ShloMosaic.StableHlo Cert.Spec

open Cert.ReferenceIdeal.ValueP

/-- A buffer that no operation of a line of host operations writes keeps its contents across the line. -/
macro "kept_by_line" ops:ident : tactic => `(tactic|
  (refine StableHlo.after_of_forall_not_mem _ _ (List.forall_iff_forall_mem.mp ?_)
   simp only [$ops:ident, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-- Two lines of host operations run one after the other. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Transport of contents along a typed reference's type equation, there and back, is the identity. -/
theorem TRef_ofBuf_toBuf {T : BufTy} {Val : EltTy → Type} (x : TRef sig T) (v : T.Contents Val) : x.ofBuf (x.toBuf v) = v := by
  obtain ⟨r, h, h2, h3⟩ := x
  subst h
  rfl

/-- Contents read back through a typed reference are the contents. -/
theorem TRef_ofBuf_eq {T : BufTy} {Val : EltTy → Type} (x : TRef sig T) (w : x.ref.ty.Contents Val) (w' : T.Contents Val)
    (h : HEq w w') : x.ofBuf w = w' :=
  eq_of_heq ((cast_heq _ w).trans h)

/-- Contents written through a typed reference are the contents. -/
theorem TRef_toBuf_eq {T : BufTy} {Val : EltTy → Type} (x : TRef sig T) (v : T.Contents Val) (w : x.ref.ty.Contents Val)
    (h : HEq v w) : x.toBuf v = w :=
  eq_of_heq ((cast_heq _ v).trans h)

section Stages

variable {F : FTy → Type} [FloatOps F]

/-- Operations 0 … 17 of @main: the edge index vectors, the degrees, their comparison with zero and their inverse square roots. -/
abbrev preA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]
/-- Operations 18 … 20 of @main: the select that zeroes the inverse square root where the degree is not positive. -/
abbrev preB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
/-- Operations 21 … 39 of @main: the edge weights. -/
abbrev preC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]
/-- Operations 40 … 43 of @main: the affine layer. -/
abbrev linOps : List (HloOp τ sig (Elt F)) :=
  [ binary main_arg0 main_arg2 main_v30 ((fun l r => Host.dotGeneral dot_S100000x100_S100x47_S100000x47_1_0_0_1_n_n none l r) : (⟨S100000x100, .f32⟩ : BufTy).Contents (Elt F) → (⟨S100x47, .f32⟩ : BufTy).Contents (Elt F) → (⟨S100000x47, .f32⟩ : BufTy).Contents (Elt F)),
    unary main_arg3 main_v31 (broadcastInDim S1x47 ![1] bcast_S47_S1x47_1 : (⟨S47, .f32⟩ : BufTy).Contents (Elt F) → (⟨S1x47, .f32⟩ : BufTy).Contents (Elt F)),
    unary main_v31 main_v32 (broadcastInDim S100000x47 ![0, 1] bcast_S1x47_S100000x47_0_1 : (⟨S1x47, .f32⟩ : BufTy).Contents (Elt F) → (⟨S100000x47, .f32⟩ : BufTy).Contents (Elt F)),
    binary main_v30 main_v32 main_v33 (addf : (⟨S100000x47, .f32⟩ : BufTy).Contents (Elt F) → (⟨S100000x47, .f32⟩ : BufTy).Contents (Elt F) → (⟨S100000x47, .f32⟩ : BufTy).Contents (Elt F)) ]
/-- Operations 44 … 59 of @main: the first propagation. -/
abbrev hop1 : List (HloOp τ sig (Elt F)) :=
  [ unary main_v29 main_v34 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v33 main_v40 main_v41 ((fun x i => Host.gather gather_S100000x47_S1700000x1_S1700000x47_1_0_n_n_0_1_147 x i) : (⟨S100000x47, .f32⟩ : BufTy).Contents (Elt F) → (⟨S1700000x1, .i32⟩ : BufTy).Contents (Elt F) → (⟨S1700000x47, .f32⟩ : BufTy).Contents (Elt F)),
    unary main_v34 main_v42 (broadcastInDim S1700000x47 ![0, 1] bcast_S1700000x1_S1700000x47_0_1 : (⟨S1700000x1, .f32⟩ : BufTy).Contents (Elt F) → (⟨S1700000x47, .f32⟩ : BufTy).Contents (Elt F)),
    binary main_v42 main_v41 main_v43 (mulf : (⟨S1700000x47, .f32⟩ : BufTy).Contents (Elt F) → (⟨S1700000x47, .f32⟩ : BufTy).Contents (Elt F) → (⟨S1700000x47, .f32⟩ : BufTy).Contents (Elt F)),
    nullary main_cst_8 (constant S_ .f32 0x00000000#32),
    unary main_cst_8 main_v44 (broadcastInDim S100000x47 ![] bcast_S_S100000x47 : (⟨S_, .f32⟩ : BufTy).Contents (Elt F) → (⟨S100000x47, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x47_S1700000x1_S1700000x47_1_0_0_1 x i u) : (⟨S100000x47, .f32⟩ : BufTy).Contents (Elt F) → (⟨S1700000x1, .i32⟩ : BufTy).Contents (Elt F) → (⟨S1700000x47, .f32⟩ : BufTy).Contents (Elt F) → (⟨S100000x47, .f32⟩ : BufTy).Contents (Elt F)) ]
/-- Operations 60 … 66 of @main: the first combination. -/
abbrev comb1 : List (HloOp τ sig (Elt F)) :=
  [ nullary main_cst_9 (constant S_ .f32 0x3F666666#32),
    unary main_cst_9 main_v47 (broadcastInDim S100000x47 ![] bcast_S_S100000x47 : (⟨S_, .f32⟩ : BufTy).Contents (Elt F) → (⟨S100000x47, .f32⟩ : BufTy).Contents (Elt F)),
    binary main_v47 main_v46 main_v48 (mulf : (⟨S100000x47, .f32⟩ : BufTy).Contents (Elt F) → (⟨S100000x47, .f32⟩ : BufTy).Contents (Elt F) → (⟨S100000x47, .f32⟩ : BufTy).Contents (Elt F)),
    nullary main_cst_10 (constant S_ .f32 0x3DCCCCCD#32),
    unary main_cst_10 main_v49 (broadcastInDim S100000x47 ![] bcast_S_S100000x47 : (⟨S_, .f32⟩ : BufTy).Contents (Elt F) → (⟨S100000x47, .f32⟩ : BufTy).Contents (Elt F)),
    binary main_v49 main_v33 main_v50 (mulf : (⟨S100000x47, .f32⟩ : BufTy).Contents (Elt F) → (⟨S100000x47, .f32⟩ : BufTy).Contents (Elt F) → (⟨S100000x47, .f32⟩ : BufTy).Contents (Elt F)),
    binary main_v48 main_v50 main_v51 (addf : (⟨S100000x47, .f32⟩ : BufTy).Contents (Elt F) → (⟨S100000x47, .f32⟩ : BufTy).Contents (Elt F) → (⟨S100000x47, .f32⟩ : BufTy).Contents (Elt F)) ]
/-- Operations 67 … 82 of @main: the second propagation. -/
abbrev hop2 : List (HloOp τ sig (Elt F)) :=
  [ unary main_v29 main_v52 (broadcastInDim S1700000x1 ![0] bcast_S1700000_S1700000x1_0 : (⟨S1700000, .f32⟩ : BufTy).Contents (Elt F) → (⟨S1700000x1, .f32⟩ : BufTy).Contents (Elt F)),
    nullary main_c_11 (constantI S_ 32 0#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v55 (broadcastInDim S1700000 ![] bcast_S_S1700000 : (⟨S_, .i32⟩ : BufTy).Contents (Elt F) → (⟨S1700000, .i32⟩ : BufTy).Contents (Elt F)),
    binary main_v3 main_v55 main_v56 (addi : (⟨S1700000, .i32⟩ : BufTy).Contents (Elt F) → (⟨S1700000, .i32⟩ : BufTy).Contents (Elt F) → (⟨S1700000, .i32⟩ : BufTy).Contents (Elt F)),
    ternary main_v54 main_v56 main_v3 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v57 main_v58 (broadcastInDim S1700000x1 ![0] bcast_S1700000_S1700000x1_0 : (⟨S1700000, .i32⟩ : BufTy).Contents (Elt F) → (⟨S1700000x1, .i32⟩ : BufTy).Contents (Elt F)),
    binary main_v51 main_v58 main_v59 ((fun x i => Host.gather gather_S100000x47_S1700000x1_S1700000x47_1_0_n_n_0_1_147 x i) : (⟨S100000x47, .f32⟩ : BufTy).Contents (Elt F) → (⟨S1700000x1, .i32⟩ : BufTy).Contents (Elt F) → (⟨S1700000x47, .f32⟩ : BufTy).Contents (Elt F)),
    unary main_v52 main_v60 (broadcastInDim S1700000x47 ![0, 1] bcast_S1700000x1_S1700000x47_0_1 : (⟨S1700000x1, .f32⟩ : BufTy).Contents (Elt F) → (⟨S1700000x47, .f32⟩ : BufTy).Contents (Elt F)),
    binary main_v60 main_v59 main_v61 (mulf : (⟨S1700000x47, .f32⟩ : BufTy).Contents (Elt F) → (⟨S1700000x47, .f32⟩ : BufTy).Contents (Elt F) → (⟨S1700000x47, .f32⟩ : BufTy).Contents (Elt F)),
    nullary main_cst_13 (constant S_ .f32 0x00000000#32),
    unary main_cst_13 main_v62 (broadcastInDim S100000x47 ![] bcast_S_S100000x47 : (⟨S_, .f32⟩ : BufTy).Contents (Elt F) → (⟨S100000x47, .f32⟩ : BufTy).Contents (Elt F)),
    unary main_v6 main_v63 (broadcastInDim S1700000x1 ![0] bcast_S1700000_S1700000x1_0 : (⟨S1700000, .i32⟩ : BufTy).Contents (Elt F) → (⟨S1700000x1, .i32⟩ : BufTy).Contents (Elt F)),
    ternary main_v62 main_v63 main_v61 main_v64 ((fun x i u => Host.scatterAdd scatter_S100000x47_S1700000x1_S1700000x47_1_0_0_1 x i u) : (⟨S100000x47, .f32⟩ : BufTy).Contents (Elt F) → (⟨S1700000x1, .i32⟩ : BufTy).Contents (Elt F) → (⟨S1700000x47, .f32⟩ : BufTy).Contents (Elt F) → (⟨S100000x47, .f32⟩ : BufTy).Contents (Elt F)) ]
/-- Operations 83 … 89 of @main: the second combination. -/
abbrev comb2 : List (HloOp τ sig (Elt F)) :=
  [ nullary main_cst_14 (constant S_ .f32 0x3F666666#32),
    unary main_cst_14 main_v65 (broadcastInDim S100000x47 ![] bcast_S_S100000x47 : (⟨S_, .f32⟩ : BufTy).Contents (Elt F) → (⟨S100000x47, .f32⟩ : BufTy).Contents (Elt F)),
    binary main_v65 main_v64 main_v66 (mulf : (⟨S100000x47, .f32⟩ : BufTy).Contents (Elt F) → (⟨S100000x47, .f32⟩ : BufTy).Contents (Elt F) → (⟨S100000x47, .f32⟩ : BufTy).Contents (Elt F)),
    nullary main_cst_15 (constant S_ .f32 0x3DCCCCCD#32),
    unary main_cst_15 main_v67 (broadcastInDim S100000x47 ![] bcast_S_S100000x47 : (⟨S_, .f32⟩ : BufTy).Contents (Elt F) → (⟨S100000x47, .f32⟩ : BufTy).Contents (Elt F)),
    binary main_v67 main_v33 main_v68 (mulf : (⟨S100000x47, .f32⟩ : BufTy).Contents (Elt F) → (⟨S100000x47, .f32⟩ : BufTy).Contents (Elt F) → (⟨S100000x47, .f32⟩ : BufTy).Contents (Elt F)),
    binary main_v66 main_v68 main_v69 (addf : (⟨S100000x47, .f32⟩ : BufTy).Contents (Elt F) → (⟨S100000x47, .f32⟩ : BufTy).Contents (Elt F) → (⟨S100000x47, .f32⟩ : BufTy).Contents (Elt F)) ]
/-- Operations 90 … 105 of @main: the third propagation. -/
abbrev hop3 : List (HloOp τ sig (Elt F)) :=
  [ unary main_v29 main_v70 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v71 (broadcastInDim S1700000 ![] bcast_S_S1700000 : (⟨S_, .i32⟩ : BufTy).Contents (Elt F) → (⟨S1700000, .i32⟩ : BufTy).Contents (Elt F)),
    binary main_v3 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v73 (broadcastInDim S1700000 ![] bcast_S_S1700000 : (⟨S_, .i32⟩ : BufTy).Contents (Elt F) → (⟨S1700000, .i32⟩ : BufTy).Contents (Elt F)),
    binary main_v3 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v69 main_v76 main_v77 ((fun x i => Host.gather gather_S100000x47_S1700000x1_S1700000x47_1_0_n_n_0_1_147 x i) : (⟨S100000x47, .f32⟩ : BufTy).Contents (Elt F) → (⟨S1700000x1, .i32⟩ : BufTy).Contents (Elt F) → (⟨S1700000x47, .f32⟩ : BufTy).Contents (Elt F)),
    unary main_v70 main_v78 (broadcastInDim S1700000x47 ![0, 1] bcast_S1700000x1_S1700000x47_0_1 : (⟨S1700000x1, .f32⟩ : BufTy).Contents (Elt F) → (⟨S1700000x47, .f32⟩ : BufTy).Contents (Elt F)),
    binary main_v78 main_v77 main_v79 (mulf : (⟨S1700000x47, .f32⟩ : BufTy).Contents (Elt F) → (⟨S1700000x47, .f32⟩ : BufTy).Contents (Elt F) → (⟨S1700000x47, .f32⟩ : BufTy).Contents (Elt F)),
    nullary main_cst_18 (constant S_ .f32 0x00000000#32),
    unary main_cst_18 main_v80 (broadcastInDim S100000x47 ![] bcast_S_S100000x47 : (⟨S_, .f32⟩ : BufTy).Contents (Elt F) → (⟨S100000x47, .f32⟩ : BufTy).Contents (Elt F)),
    unary main_v6 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000x47_S1700000x1_S1700000x47_1_0_0_1 x i u) : (⟨S100000x47, .f32⟩ : BufTy).Contents (Elt F) → (⟨S1700000x1, .i32⟩ : BufTy).Contents (Elt F) → (⟨S1700000x47, .f32⟩ : BufTy).Contents (Elt F) → (⟨S100000x47, .f32⟩ : BufTy).Contents (Elt F)) ]
/-- Operations 106 … 112 of @main: the third combination. -/
abbrev comb3 : List (HloOp τ sig (Elt F)) :=
  [ nullary main_cst_19 (constant S_ .f32 0x3F666666#32),
    unary main_cst_19 main_v83 (broadcastInDim S100000x47 ![] bcast_S_S100000x47 : (⟨S_, .f32⟩ : BufTy).Contents (Elt F) → (⟨S100000x47, .f32⟩ : BufTy).Contents (Elt F)),
    binary main_v83 main_v82 main_v84 (mulf : (⟨S100000x47, .f32⟩ : BufTy).Contents (Elt F) → (⟨S100000x47, .f32⟩ : BufTy).Contents (Elt F) → (⟨S100000x47, .f32⟩ : BufTy).Contents (Elt F)),
    nullary main_cst_20 (constant S_ .f32 0x3DCCCCCD#32),
    unary main_cst_20 main_v85 (broadcastInDim S100000x47 ![] bcast_S_S100000x47 : (⟨S_, .f32⟩ : BufTy).Contents (Elt F) → (⟨S100000x47, .f32⟩ : BufTy).Contents (Elt F)),
    binary main_v85 main_v33 main_v86 (mulf : (⟨S100000x47, .f32⟩ : BufTy).Contents (Elt F) → (⟨S100000x47, .f32⟩ : BufTy).Contents (Elt F) → (⟨S100000x47, .f32⟩ : BufTy).Contents (Elt F)),
    binary main_v84 main_v86 main_v87 (addf : (⟨S100000x47, .f32⟩ : BufTy).Contents (Elt F) → (⟨S100000x47, .f32⟩ : BufTy).Contents (Elt F) → (⟨S100000x47, .f32⟩ : BufTy).Contents (Elt F)) ]
/-- Operations 113 … 127 of @main: the log-softmax. -/
abbrev lsmOps : List (HloOp τ sig (Elt F)) :=
  [ TRef.nullary (TRef.of (T := ⟨S_, .f32⟩) main_call1_cst) (constant S_ .f32 0xFF800000#32),
    TRef.binary (TRef.of (T := ⟨S100000x47, .f32⟩) main_v87) (TRef.of (T := ⟨S_, .f32⟩) main_call1_cst) (TRef.of (T := ⟨S100000, .f32⟩) main_call1_v0) (fun x v => Host.reduce FloatOps.maximumf x v reducesTo_S100000x47_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x47, .f32⟩) main_call1_v4) (broadcastInDim S100000x47 ![0, 1] bcast_S100000x1_S100000x47_0_1),
    TRef.binary (TRef.of (T := ⟨S100000x47, .f32⟩) main_v87) (TRef.of (T := ⟨S100000x47, .f32⟩) main_call1_v4) (TRef.of (T := ⟨S100000x47, .f32⟩) main_call1_v5) subf,
    TRef.unary (TRef.of (T := ⟨S100000x47, .f32⟩) main_call1_v5) (TRef.of (T := ⟨S100000x47, .f32⟩) main_call1_v6) Host.exp,
    TRef.nullary (TRef.of (T := ⟨S_, .f32⟩) main_call1_cst_1) (constant S_ .f32 0x00000000#32),
    TRef.binary (TRef.of (T := ⟨S100000x47, .f32⟩) main_call1_v6) (TRef.of (T := ⟨S_, .f32⟩) main_call1_cst_1) (TRef.of (T := ⟨S100000, .f32⟩) main_call1_v7) (fun x v => Host.reduceAdd x v reducesTo_S100000x47_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x47, .f32⟩) main_call1_v10) (broadcastInDim S100000x47 ![0, 1] bcast_S100000x1_S100000x47_0_1),
    TRef.binary (TRef.of (T := ⟨S100000x47, .f32⟩) main_call1_v5) (TRef.of (T := ⟨S100000x47, .f32⟩) main_call1_v10) (TRef.of (T := ⟨S100000x47, .f32⟩) main_v88) subf ]

set_option maxRecDepth 65536 in
/-- @main's operations are the eleven stages in order. -/
theorem ops_eq : (ops : List (HloOp τ sig (Elt F)))
    = preA ++ (preB ++ (preC ++ (linOps ++ (hop1 ++ (comb1 ++ (hop2 ++ (comb2 ++ (hop3 ++ (comb3 ++ lsmOps))))))))) := rfl

end Stages

end Cert.ReferenceIdeal.Host

end
-- ==== Proof.RefChain.lean ====
/-
  The reference's buffers after each of its eleven stages.

  Each stage's result is one named function of buffers the stage does not change: the edge index vectors and the edge
  weights once, then the affine layer, and three times one propagation followed by the teleport combination; the last
  stage is the log-softmax of the third combination.
-/
import proofs.«170548_j59021440581796_1_alg».proof.Proof.RefStages

set_option Elab.async false

noncomputable section

open scoped BigOperators

namespace Cert.ReferenceIdeal.Host

open Cert.ReferenceIdeal Cert.ReferenceIdeal.Gen Idealize.ShloMosaic Idealize.ShloMosaic.TcCoe Idealize.ShloMosaic.ValueIdx Idealize.SL.Sem Idealize.ShloMosaic.StableHlo Cert.Spec

open Cert.ReferenceIdeal.ValueP

variable (m : (ℓ : Loc nD τ sig) → Buf (Elt Ideal) ℓ) (c : Dev nD)

/-- The edge list as launched. -/
abbrev eOf : EdgeList := m ((c.tc : Thread nD τ).loc main_arg1)

/-- The affine layer of the launched arguments, one hop followed by the combination, and the network. -/
def h0R : NodeArr :=
  linH (m ((c.tc : Thread nD τ).loc main_arg0)) (m ((c.tc : Thread nD τ).loc main_arg2)) (m ((c.tc : Thread nD τ).loc main_arg3))
def stepR (h : NodeArr) : NodeArr :=
  combH (hopOf (normOf (srcIdx (eOf m c)) (dstIdx (eOf m c))) (srcIdx (eOf m c)) (dstIdx (eOf m c)) h) (h0R m c)
def netR : NodeArr := lsmH (stepR m c (stepR m c (stepR m c (h0R m c))))

/-- The buffers' contents after each stage. -/
abbrev R0 : Valuation τ sig (Elt Ideal) := launchContents m c
def R1 : Valuation τ sig (Elt Ideal) := StableHlo.after (preA (F := Ideal)) (R0 m c)
def R2 : Valuation τ sig (Elt Ideal) := StableHlo.after (preB (F := Ideal)) (R1 m c)
def R3 : Valuation τ sig (Elt Ideal) := StableHlo.after (preC (F := Ideal)) (R2 m c)
def R4 : Valuation τ sig (Elt Ideal) := StableHlo.after (linOps (F := Ideal)) (R3 m c)
def R5 : Valuation τ sig (Elt Ideal) := StableHlo.after (hop1 (F := Ideal)) (R4 m c)
def R6 : Valuation τ sig (Elt Ideal) := StableHlo.after (comb1 (F := Ideal)) (R5 m c)
def R7 : Valuation τ sig (Elt Ideal) := StableHlo.after (hop2 (F := Ideal)) (R6 m c)
def R8 : Valuation τ sig (Elt Ideal) := StableHlo.after (comb2 (F := Ideal)) (R7 m c)
def R9 : Valuation τ sig (Elt Ideal) := StableHlo.after (hop3 (F := Ideal)) (R8 m c)
def R10 : Valuation τ sig (Elt Ideal) := StableHlo.after (comb3 (F := Ideal)) (R9 m c)
def R11 : Valuation τ sig (Elt Ideal) := StableHlo.after (lsmOps (F := Ideal)) (R10 m c)

theorem R1_v3 : R1 m c (Proc.devRef .tc main_v3) = srcIdx (eOf m c) := by
  show StableHlo.after (preA (F := Ideal)) (R0 m c) (Proc.devRef .tc main_v3) = _
  (after_results_simp <;> (try simp only [cast_eq])) <;> rfl
theorem R1_v6 : R1 m c (Proc.devRef .tc main_v6) = dstIdx (eOf m c) := by
  show StableHlo.after (preA (F := Ideal)) (R0 m c) (Proc.devRef .tc main_v6) = _
  (after_results_simp <;> (try simp only [cast_eq])) <;> rfl
theorem R1_v12 : R1 m c (Proc.devRef .tc main_v12) = cmpf (F := Ideal) .ogt (degOf (dstIdx (eOf m c))) (broadcastInDim S100000 ![] bcast_S_S100000 (constant (F := Ideal) S_ .f32 0x00000000#32)) := by
  show StableHlo.after (preA (F := Ideal)) (R0 m c) (Proc.devRef .tc main_v12) = _
  (after_results_simp <;> (try simp only [cast_eq])) <;> rfl
theorem R1_v13 : R1 m c (Proc.devRef .tc main_v13) = Host.rsqrt (F := Ideal) (degOf (dstIdx (eOf m c))) := by
  show StableHlo.after (preA (F := Ideal)) (R0 m c) (Proc.devRef .tc main_v13) = _
  (after_results_simp <;> (try simp only [cast_eq])) <;> rfl
theorem R1_cst_2 : R1 m c (Proc.devRef .tc main_cst_2) = constant (F := Ideal) S_ .f32 0x00000000#32 := by
  show StableHlo.after (preA (F := Ideal)) (R0 m c) (Proc.devRef .tc main_cst_2) = _
  (after_results_simp <;> (try simp only [cast_eq])) <;> rfl
theorem R1_arg0 : R1 m c (Proc.devRef .tc main_arg0) = m ((c.tc : Thread nD τ).loc main_arg0) :=
  (show StableHlo.after (preA (F := Ideal)) (R0 m c) (Proc.devRef .tc main_arg0) = R0 m c (Proc.devRef .tc main_arg0) by kept_by_line preA).trans rfl
theorem R1_arg2 : R1 m c (Proc.devRef .tc main_arg2) = m ((c.tc : Thread nD τ).loc main_arg2) :=
  (show StableHlo.after (preA (F := Ideal)) (R0 m c) (Proc.devRef .tc main_arg2) = R0 m c (Proc.devRef .tc main_arg2) by kept_by_line preA).trans rfl
theorem R1_arg3 : R1 m c (Proc.devRef .tc main_arg3) = m ((c.tc : Thread nD τ).loc main_arg3) :=
  (show StableHlo.after (preA (F := Ideal)) (R0 m c) (Proc.devRef .tc main_arg3) = R0 m c (Proc.devRef .tc main_arg3) by kept_by_line preA).trans rfl

theorem R2_v14 : R2 m c (Proc.devRef .tc main_v14) = dinvOf (dstIdx (eOf m c)) := by
  show StableHlo.after (preB (F := Ideal)) (R1 m c) (Proc.devRef .tc main_v14) = _
  after_results_simp
  try simp only [cast_eq]
  rw [R1_v12, R1_v13, R1_cst_2]
  rfl
theorem R2_v3 : R2 m c (Proc.devRef .tc main_v3) = srcIdx (eOf m c) :=
  (show StableHlo.after (preB (F := Ideal)) (R1 m c) (Proc.devRef .tc main_v3) = R1 m c (Proc.devRef .tc main_v3) by kept_by_line preB).trans (R1_v3 m c)
theorem R2_v6 : R2 m c (Proc.devRef .tc main_v6) = dstIdx (eOf m c) :=
  (show StableHlo.after (preB (F := Ideal)) (R1 m c) (Proc.devRef .tc main_v6) = R1 m c (Proc.devRef .tc main_v6) by kept_by_line preB).trans (R1_v6 m c)
theorem R2_arg0 : R2 m c (Proc.devRef .tc main_arg0) = m ((c.tc : Thread nD τ).loc main_arg0) :=
  (show StableHlo.after (preB (F := Ideal)) (R1 m c) (Proc.devRef .tc main_arg0) = R1 m c (Proc.devRef .tc main_arg0) by kept_by_line preB).trans (R1_arg0 m c)
theorem R2_arg2 : R2 m c (Proc.devRef .tc main_arg2) = m ((c.tc : Thread nD τ).loc main_arg2) :=
  (show StableHlo.after (preB (F := Ideal)) (R1 m c) (Proc.devRef .tc main_arg2) = R1 m c (Proc.devRef .tc main_arg2) by kept_by_line preB).trans (R1_arg2 m c)
theorem R2_arg3 : R2 m c (Proc.devRef .tc main_arg3) = m ((c.tc : Thread nD τ).loc main_arg3) :=
  (show StableHlo.after (preB (F := Ideal)) (R1 m c) (Proc.devRef .tc main_arg3) = R1 m c (Proc.devRef .tc main_arg3) by kept_by_line preB).trans (R1_arg3 m c)

theorem R3_v29 : R3 m c (Proc.devRef .tc main_v29) = normOf (srcIdx (eOf m c)) (dstIdx (eOf m c)) := by
  show StableHlo.after (preC (F := Ideal)) (R2 m c) (Proc.devRef .tc main_v29) = _
  after_results_simp
  try simp only [cast_eq]
  rw [R2_v14, R2_v3, R2_v6]
  rfl
theorem R3_v3 : R3 m c (Proc.devRef .tc main_v3) = srcIdx (eOf m c) :=
  (show StableHlo.after (preC (F := Ideal)) (R2 m c) (Proc.devRef .tc main_v3) = R2 m c (Proc.devRef .tc main_v3) by kept_by_line preC).trans (R2_v3 m c)
theorem R3_v6 : R3 m c (Proc.devRef .tc main_v6) = dstIdx (eOf m c) :=
  (show StableHlo.after (preC (F := Ideal)) (R2 m c) (Proc.devRef .tc main_v6) = R2 m c (Proc.devRef .tc main_v6) by kept_by_line preC).trans (R2_v6 m c)
theorem R3_arg0 : R3 m c (Proc.devRef .tc main_arg0) = m ((c.tc : Thread nD τ).loc main_arg0) :=
  (show StableHlo.after (preC (F := Ideal)) (R2 m c) (Proc.devRef .tc main_arg0) = R2 m c (Proc.devRef .tc main_arg0) by kept_by_line preC).trans (R2_arg0 m c)
theorem R3_arg2 : R3 m c (Proc.devRef .tc main_arg2) = m ((c.tc : Thread nD τ).loc main_arg2) :=
  (show StableHlo.after (preC (F := Ideal)) (R2 m c) (Proc.devRef .tc main_arg2) = R2 m c (Proc.devRef .tc main_arg2) by kept_by_line preC).trans (R2_arg2 m c)
theorem R3_arg3 : R3 m c (Proc.devRef .tc main_arg3) = m ((c.tc : Thread nD τ).loc main_arg3) :=
  (show StableHlo.after (preC (F := Ideal)) (R2 m c) (Proc.devRef .tc main_arg3) = R2 m c (Proc.devRef .tc main_arg3) by kept_by_line preC).trans (R2_arg3 m c)

theorem R4_v33 : R4 m c (Proc.devRef .tc main_v33) = h0R m c := by
  show StableHlo.after (linOps (F := Ideal)) (R3 m c) (Proc.devRef .tc main_v33) = _
  after_results_simp
  try simp only [cast_eq]
  rw [R3_arg0, R3_arg2, R3_arg3]
  rfl
theorem R4_v3 : R4 m c (Proc.devRef .tc main_v3) = srcIdx (eOf m c) :=
  (show StableHlo.after (linOps (F := Ideal)) (R3 m c) (Proc.devRef .tc main_v3) = R3 m c (Proc.devRef .tc main_v3) by kept_by_line linOps).trans (R3_v3 m c)
theorem R4_v6 : R4 m c (Proc.devRef .tc main_v6) = dstIdx (eOf m c) :=
  (show StableHlo.after (linOps (F := Ideal)) (R3 m c) (Proc.devRef .tc main_v6) = R3 m c (Proc.devRef .tc main_v6) by kept_by_line linOps).trans (R3_v6 m c)
theorem R4_v29 : R4 m c (Proc.devRef .tc main_v29) = normOf (srcIdx (eOf m c)) (dstIdx (eOf m c)) :=
  (show StableHlo.after (linOps (F := Ideal)) (R3 m c) (Proc.devRef .tc main_v29) = R3 m c (Proc.devRef .tc main_v29) by kept_by_line linOps).trans (R3_v29 m c)

theorem R5_v46 : R5 m c (Proc.devRef .tc main_v46)
    = hopOf (normOf (srcIdx (eOf m c)) (dstIdx (eOf m c))) (srcIdx (eOf m c)) (dstIdx (eOf m c)) (h0R m c) := by
  show StableHlo.after (hop1 (F := Ideal)) (R4 m c) (Proc.devRef .tc main_v46) = _
  after_results_simp
  try simp only [cast_eq]
  rw [R4_v6, R4_v29, R4_v3, R4_v33]
  rfl
theorem R5_v3 : R5 m c (Proc.devRef .tc main_v3) = srcIdx (eOf m c) :=
  (show StableHlo.after (hop1 (F := Ideal)) (R4 m c) (Proc.devRef .tc main_v3) = R4 m c (Proc.devRef .tc main_v3) by kept_by_line hop1).trans (R4_v3 m c)
theorem R5_v6 : R5 m c (Proc.devRef .tc main_v6) = dstIdx (eOf m c) :=
  (show StableHlo.after (hop1 (F := Ideal)) (R4 m c) (Proc.devRef .tc main_v6) = R4 m c (Proc.devRef .tc main_v6) by kept_by_line hop1).trans (R4_v6 m c)
theorem R5_v29 : R5 m c (Proc.devRef .tc main_v29) = normOf (srcIdx (eOf m c)) (dstIdx (eOf m c)) :=
  (show StableHlo.after (hop1 (F := Ideal)) (R4 m c) (Proc.devRef .tc main_v29) = R4 m c (Proc.devRef .tc main_v29) by kept_by_line hop1).trans (R4_v29 m c)
theorem R5_v33 : R5 m c (Proc.devRef .tc main_v33) = h0R m c :=
  (show StableHlo.after (hop1 (F := Ideal)) (R4 m c) (Proc.devRef .tc main_v33) = R4 m c (Proc.devRef .tc main_v33) by kept_by_line hop1).trans (R4_v33 m c)

theorem R6_v51 : R6 m c (Proc.devRef .tc main_v51) = stepR m c (h0R m c) := by
  show StableHlo.after (comb1 (F := Ideal)) (R5 m c) (Proc.devRef .tc main_v51) = _
  after_results_simp
  try simp only [cast_eq]
  rw [R5_v46, R5_v33]
  rfl
theorem R6_v3 : R6 m c (Proc.devRef .tc main_v3) = srcIdx (eOf m c) :=
  (show StableHlo.after (comb1 (F := Ideal)) (R5 m c) (Proc.devRef .tc main_v3) = R5 m c (Proc.devRef .tc main_v3) by kept_by_line comb1).trans (R5_v3 m c)
theorem R6_v6 : R6 m c (Proc.devRef .tc main_v6) = dstIdx (eOf m c) :=
  (show StableHlo.after (comb1 (F := Ideal)) (R5 m c) (Proc.devRef .tc main_v6) = R5 m c (Proc.devRef .tc main_v6) by kept_by_line comb1).trans (R5_v6 m c)
theorem R6_v29 : R6 m c (Proc.devRef .tc main_v29) = normOf (srcIdx (eOf m c)) (dstIdx (eOf m c)) :=
  (show StableHlo.after (comb1 (F := Ideal)) (R5 m c) (Proc.devRef .tc main_v29) = R5 m c (Proc.devRef .tc main_v29) by kept_by_line comb1).trans (R5_v29 m c)
theorem R6_v33 : R6 m c (Proc.devRef .tc main_v33) = h0R m c :=
  (show StableHlo.after (comb1 (F := Ideal)) (R5 m c) (Proc.devRef .tc main_v33) = R5 m c (Proc.devRef .tc main_v33) by kept_by_line comb1).trans (R5_v33 m c)

theorem R7_v64 : R7 m c (Proc.devRef .tc main_v64)
    = hopOf (normOf (srcIdx (eOf m c)) (dstIdx (eOf m c))) (srcIdx (eOf m c)) (dstIdx (eOf m c)) (stepR m c (h0R m c)) := by
  show StableHlo.after (hop2 (F := Ideal)) (R6 m c) (Proc.devRef .tc main_v64) = _
  after_results_simp
  try simp only [cast_eq]
  rw [R6_v6, R6_v29, R6_v3, R6_v51]
  rfl
theorem R7_v3 : R7 m c (Proc.devRef .tc main_v3) = srcIdx (eOf m c) :=
  (show StableHlo.after (hop2 (F := Ideal)) (R6 m c) (Proc.devRef .tc main_v3) = R6 m c (Proc.devRef .tc main_v3) by kept_by_line hop2).trans (R6_v3 m c)
theorem R7_v6 : R7 m c (Proc.devRef .tc main_v6) = dstIdx (eOf m c) :=
  (show StableHlo.after (hop2 (F := Ideal)) (R6 m c) (Proc.devRef .tc main_v6) = R6 m c (Proc.devRef .tc main_v6) by kept_by_line hop2).trans (R6_v6 m c)
theorem R7_v29 : R7 m c (Proc.devRef .tc main_v29) = normOf (srcIdx (eOf m c)) (dstIdx (eOf m c)) :=
  (show StableHlo.after (hop2 (F := Ideal)) (R6 m c) (Proc.devRef .tc main_v29) = R6 m c (Proc.devRef .tc main_v29) by kept_by_line hop2).trans (R6_v29 m c)
theorem R7_v33 : R7 m c (Proc.devRef .tc main_v33) = h0R m c :=
  (show StableHlo.after (hop2 (F := Ideal)) (R6 m c) (Proc.devRef .tc main_v33) = R6 m c (Proc.devRef .tc main_v33) by kept_by_line hop2).trans (R6_v33 m c)

theorem R8_v69 : R8 m c (Proc.devRef .tc main_v69) = stepR m c (stepR m c (h0R m c)) := by
  show StableHlo.after (comb2 (F := Ideal)) (R7 m c) (Proc.devRef .tc main_v69) = _
  after_results_simp
  try simp only [cast_eq]
  rw [R7_v64, R7_v33]
  rfl
theorem R8_v3 : R8 m c (Proc.devRef .tc main_v3) = srcIdx (eOf m c) :=
  (show StableHlo.after (comb2 (F := Ideal)) (R7 m c) (Proc.devRef .tc main_v3) = R7 m c (Proc.devRef .tc main_v3) by kept_by_line comb2).trans (R7_v3 m c)
theorem R8_v6 : R8 m c (Proc.devRef .tc main_v6) = dstIdx (eOf m c) :=
  (show StableHlo.after (comb2 (F := Ideal)) (R7 m c) (Proc.devRef .tc main_v6) = R7 m c (Proc.devRef .tc main_v6) by kept_by_line comb2).trans (R7_v6 m c)
theorem R8_v29 : R8 m c (Proc.devRef .tc main_v29) = normOf (srcIdx (eOf m c)) (dstIdx (eOf m c)) :=
  (show StableHlo.after (comb2 (F := Ideal)) (R7 m c) (Proc.devRef .tc main_v29) = R7 m c (Proc.devRef .tc main_v29) by kept_by_line comb2).trans (R7_v29 m c)
theorem R8_v33 : R8 m c (Proc.devRef .tc main_v33) = h0R m c :=
  (show StableHlo.after (comb2 (F := Ideal)) (R7 m c) (Proc.devRef .tc main_v33) = R7 m c (Proc.devRef .tc main_v33) by kept_by_line comb2).trans (R7_v33 m c)

theorem R9_v82 : R9 m c (Proc.devRef .tc main_v82)
    = hopOf (normOf (srcIdx (eOf m c)) (dstIdx (eOf m c))) (srcIdx (eOf m c)) (dstIdx (eOf m c)) (stepR m c (stepR m c (h0R m c))) := by
  show StableHlo.after (hop3 (F := Ideal)) (R8 m c) (Proc.devRef .tc main_v82) = _
  after_results_simp
  try simp only [cast_eq]
  rw [R8_v6, R8_v29, R8_v3, R8_v69]
  rfl
theorem R9_v33 : R9 m c (Proc.devRef .tc main_v33) = h0R m c :=
  (show StableHlo.after (hop3 (F := Ideal)) (R8 m c) (Proc.devRef .tc main_v33) = R8 m c (Proc.devRef .tc main_v33) by kept_by_line hop3).trans (R8_v33 m c)

theorem R10_v87 : R10 m c (Proc.devRef .tc main_v87) = stepR m c (stepR m c (stepR m c (h0R m c))) := by
  show StableHlo.after (comb3 (F := Ideal)) (R9 m c) (Proc.devRef .tc main_v87) = _
  after_results_simp
  try simp only [cast_eq]
  rw [R9_v82, R9_v33]
  rfl

theorem R11_v88 : R11 m c (Proc.devRef .tc main_v88) = netR m c := by
  show StableHlo.after (lsmOps (F := Ideal)) (R10 m c) (Proc.devRef .tc main_v88) = _
  after_results_simp
  simp only [TRef_ofBuf_toBuf]
  have hX : (TRef.of (sig := sig) (T := ⟨S100000x47, .f32⟩) main_v87).ofBuf (R10 m c (Proc.devRef .tc main_v87)) = stepR m c (stepR m c (stepR m c (h0R m c))) :=
    TRef_ofBuf_eq _ _ _ (heq_of_eq (R10_v87 m c))
  rw [hX]
  refine TRef_toBuf_eq _ _ _ (heq_of_eq ?_)
  unfold netR
  generalize stepR m c (stepR m c (stepR m c (h0R m c))) = X
  unfold lsmH shiftH
  rfl

end Cert.ReferenceIdeal.Host

end
-- ==== Proof.RefValue.lean ====
/-
  The reference's run, read: its result is the staged network of the launched arguments, and that network is the
  specification's composition — the log-softmax of three propagation-and-combination steps from the affine layer.
-/
import proofs.«170548_j59021440581796_1_alg».proof.Proof.RefChain

set_option Elab.async false

noncomputable section

open scoped BigOperators

namespace Cert.ReferenceIdeal.Host

open Cert.ReferenceIdeal Cert.ReferenceIdeal.Gen Idealize.ShloMosaic Idealize.ShloMosaic.TcCoe Idealize.ShloMosaic.ValueIdx Idealize.SL.Sem Idealize.ShloMosaic.StableHlo Cert.Spec

open Cert.ReferenceIdeal.ValueP

variable (m : (ℓ : Loc nD τ sig) → Buf (Elt Ideal) ℓ) (c : Dev nD)

/-- The result buffer after the whole line of operations. -/
theorem after_v88 : StableHlo.after (ops (F := Ideal)) (launchContents m c) (Proc.devRef .tc main_v88) = netR m c := by
  rw [ops_eq (F := Ideal), after_append, after_append, after_append, after_append, after_append, after_append, after_append, after_append, after_append, after_append]
  exact R11_v88 m c

set_option maxRecDepth 65536 in
/-- The reference's run, read: every weakly fair execution terminates with the result at the staged network of the launched
    arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v88) = netR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v88).trans (after_v88 m c),
      (h c main_arg0).trans ((show StableHlo.after (ops (F := Ideal)) (launchContents m c) (Proc.devRef .tc main_arg0) = launchContents m c (Proc.devRef .tc main_arg0) by kept_by_line ops).trans rfl),
      (h c main_arg1).trans ((show StableHlo.after (ops (F := Ideal)) (launchContents m c) (Proc.devRef .tc main_arg1) = launchContents m c (Proc.devRef .tc main_arg1) by kept_by_line ops).trans rfl),
      (h c main_arg2).trans ((show StableHlo.after (ops (F := Ideal)) (launchContents m c) (Proc.devRef .tc main_arg2) = launchContents m c (Proc.devRef .tc main_arg2) by kept_by_line ops).trans rfl),
      (h c main_arg3).trans ((show StableHlo.after (ops (F := Ideal)) (launchContents m c) (Proc.devRef .tc main_arg3) = launchContents m c (Proc.devRef .tc main_arg3) by kept_by_line ops).trans rfl)⟩)
    (run_seq scopedRefs_eq scopedSems_eq defs main (fun _ => ops) main_eq (fun _ => ops_sub) m ρ)

/-- The staged network is the specification's: the dense stages entry by entry, the graph stages untouched. -/
theorem netR_eq : netR m c
    = lsm (comb (hopOf (normOf (srcIdx (eOf m c)) (dstIdx (eOf m c))) (srcIdx (eOf m c)) (dstIdx (eOf m c))
        (comb (hopOf (normOf (srcIdx (eOf m c)) (dstIdx (eOf m c))) (srcIdx (eOf m c)) (dstIdx (eOf m c))
          (comb (hopOf (normOf (srcIdx (eOf m c)) (dstIdx (eOf m c))) (srcIdx (eOf m c)) (dstIdx (eOf m c)) (h0R m c)) (h0R m c))) (h0R m c))) (h0R m c)) := by
  unfold netR stepR
  rw [lsmH_eq, combH_eq, combH_eq, combH_eq]

theorem h0R_eq : h0R m c = lin (m ((c.tc : Thread nD τ).loc main_arg0)) (m ((c.tc : Thread nD τ).loc main_arg2)) (fun q => m ((c.tc : Thread nD τ).loc main_arg3) (ix1 q)) :=
  linH_eq _ _ _

end Cert.ReferenceIdeal.Host

end
-- ==== Proof.lean ====
/-
  A three-hop graph propagation with teleport, ending in a row-wise log-softmax: the kernel against its reference.

  Both programs compute, on the extended reals,
      h0 = x·W + b,      h ← c₉·P(h) + c₁·h0  (three times),      out = log-softmax of the rows of h,
  where P gathers the rows of h at the edges' source nodes, scales them by the symmetric edge weights and adds them up at
  the destination nodes.  The kernel runs the affine layer, the three combinations and the log-softmax as pipelined
  regions over blocks of 10000 rows and leaves P to host operations; the reference is host operations throughout.
  A change of float format is the identity on the extended reals, a matrix product into a zero accumulator and a host
  product are the same sum, a lane maximum and a host maximum fold the same row, and the maximum of a row's maximum with
  the value it was started from is that maximum; P is the same term in both programs.  No law used needs finiteness, so
  the precondition is never opened.  The ideal pass rewrote nothing, so the idealization's conjunct is trivial.
-/
import proofs.«170548_j59021440581796_1_alg».proof.Defs
import proofs.«170548_j59021440581796_1_alg».proof.Proof.Gen.Kernel
import proofs.«170548_j59021440581796_1_alg».proof.Proof.Gen.Kernel.Skeleton
import proofs.«170548_j59021440581796_1_alg».proof.Proof.Gen.Kernel.Launch
import proofs.«170548_j59021440581796_1_alg».proof.Proof.Gen.Kernel.Points
import proofs.«170548_j59021440581796_1_alg».proof.Proof.Gen.Kernel.Frame
import proofs.«170548_j59021440581796_1_alg».proof.Proof.Gen.KernelIdeal
import proofs.«170548_j59021440581796_1_alg».proof.Proof.Gen.KernelIdeal.Skeleton
import proofs.«170548_j59021440581796_1_alg».proof.Proof.Gen.KernelIdeal.Launch
import proofs.«170548_j59021440581796_1_alg».proof.Proof.Gen.KernelIdeal.Points
import proofs.«170548_j59021440581796_1_alg».proof.Proof.Gen.KernelIdeal.Frame
import proofs.«170548_j59021440581796_1_alg».proof.Proof.Gen.ReferenceIdeal
import proofs.«170548_j59021440581796_1_alg».proof.Proof.Gen.Pre_finite_inputs
import proofs.«170548_j59021440581796_1_alg».proof.Proof.KernelRun
import proofs.«170548_j59021440581796_1_alg».proof.Proof.KernelValue
import proofs.«170548_j59021440581796_1_alg».proof.Proof.RefValue
import Idealize.ShloMosaic.Adequacy
import Idealize.ShloMosaic.Init

noncomputable section

namespace Cert.Proof

open Idealize.ShloMosaic Idealize.SL.Sem

/-! ## The graph stages are the same host terms in both programs

The two programs print the same operations over their own copies of the shape facts and dimension records; stage by
stage the two spellings are one term. -/

theorem srcIdx_eq : Cert.KernelIdeal.Host.srcIdx = Cert.ReferenceIdeal.Host.srcIdx := rfl
theorem dstIdx_eq : Cert.KernelIdeal.Host.dstIdx = Cert.ReferenceIdeal.Host.dstIdx := rfl
theorem wrapIdx_eq : Cert.KernelIdeal.Host.wrapIdx = Cert.ReferenceIdeal.Host.wrapIdx := rfl
theorem degOf_eq : Cert.KernelIdeal.Host.degOf = Cert.ReferenceIdeal.Host.degOf := rfl
theorem dinvOf_eq : Cert.KernelIdeal.Host.dinvOf = Cert.ReferenceIdeal.Host.dinvOf := by
  funext d
  unfold Cert.KernelIdeal.Host.dinvOf Cert.ReferenceIdeal.Host.dinvOf
  rw [degOf_eq] <;> rfl
theorem normOf_eq : Cert.KernelIdeal.Host.normOf = Cert.ReferenceIdeal.Host.normOf := by
  funext s d
  unfold Cert.KernelIdeal.Host.normOf Cert.ReferenceIdeal.Host.normOf
  rw [dinvOf_eq, wrapIdx_eq] <;> rfl
theorem hopOf_eq : Cert.KernelIdeal.Host.hopOf = Cert.ReferenceIdeal.Host.hopOf := by
  funext n s d h
  unfold Cert.KernelIdeal.Host.hopOf Cert.ReferenceIdeal.Host.hopOf
  rw [wrapIdx_eq] <;> rfl

/-- The two staged networks are one function of arguments that agree: the dense stages are the shared specification on
    both sides, and the graph stages are the same host terms. -/
theorem networks_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Host.netR m' c = Cert.KernelIdeal.Gen.W11 m ρ c (Proc.devRef .tc Cert.KernelIdeal.main_v76) := by
  rw [Cert.KernelIdeal.Host.W11_v76 m ρ c, Cert.ReferenceIdeal.Host.netR_eq m' c, Cert.ReferenceIdeal.Host.h0R_eq m' c]
  unfold Cert.KernelIdeal.Host.stepK Cert.KernelIdeal.Host.h0K Cert.KernelIdeal.Host.eOf Cert.ReferenceIdeal.Host.eOf
  rw [h0, h1, h2, h3, hopOf_eq, normOf_eq, srcIdx_eq, dstIdx_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Host.run m ρ)

theorem preserves : Cert.preserves_Kernel_KernelIdeal := trivial

/-- At the ideal instance the kernel's result array ends at the fold's value (the log-softmax of the third combination)
    and the reference's at its staged network of arguments that agree: one function. -/
theorem algebraic : Cert.algebraic_KernelIdeal_ReferenceIdeal := by
  intro m ρ m' ρ' _ hagree
  refine ⟨fun c => Cert.KernelIdeal.Gen.W11 m ρ c (Proc.devRef .tc Cert.KernelIdeal.main_v76), Cert.KernelIdeal.KRun.run_value m ρ, ?_⟩
  refine (θ_run Cert.ReferenceIdeal.defs _ _).mono (fun _ h c => ⟨(h c).1.trans ?_, (h c).2⟩) (Cert.ReferenceIdeal.Host.run m' ρ')
  exact networks_agree m ρ m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
